-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1x4096x1024 : Shape := ⟨4, ![1, 1, 4096, 1024]⟩
abbrev S1024x1024 : Shape := ⟨2, ![1024, 1024]⟩
abbrev S1024 : Shape := ⟨1, ![1024]⟩
abbrev S2048x1024 : Shape := ⟨2, ![2048, 1024]⟩
abbrev S2048 : Shape := ⟨1, ![2048]⟩
abbrev S1024x64 : Shape := ⟨2, ![1024, 64]⟩
abbrev S_ : Shape := ⟨0, ![]⟩

class Facts : Prop where
  bcast_S_S1x1x4096x1024 : S_.BroadcastsInDim S1x1x4096x1024 (![] : Fin 0 → Fin S1x1x4096x1024.rank)
  reducesTo_S1x1x4096x1024_S_d0_1_2_3 : S1x1x4096x1024.ReducesTo [0, 1, 2, 3] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_
  bcast_S_S1024x64 : S_.BroadcastsInDim S1024x64 (![] : Fin 0 → Fin S1024x64.rank)
  reducesTo_S1024x64_S_d0_1 : S1024x64.ReducesTo [0, 1] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S2048 .f32) (main_arg5 : FVec F S1024x64 .f32) (main_arg6 : FVec F S1024 .f32) (main_arg7 : FVec F S1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S1024x64 .f32 := Host.absf main_arg5
  let main_cst_8 : FVec F S_ .f32 := constant S_ .f32 0x7F800000#32
  let main_v25 : FVec F S1024x64 .f32 := broadcastInDim S1024x64 ![] bcast_S_S1024x64 main_cst_8
  let main_v26 : IVec S1024x64 1 := cmpf .olt main_v24 main_v25
  let main_c_9 : IVec S_ 1 := constantI S_ 1 1#1
  let main_v27 : IVec S_ 1 := (fun x v => Host.reduce IntOp.andi x v reducesTo_S1024x64_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_v33

def fn {F : FTy → Type} [FloatOps F] (main_arg0 : FVec F S1x1x4096x1024 .f32) (main_arg1 : FVec F S1024x1024 .f32) (main_arg2 : FVec F S1024 .f32) (main_arg3 : FVec F S2048x1024 .f32) (main_arg4 : FVec F S2048 .f32) (main_arg5 : FVec F S1024x64 .f32) (main_arg6 : FVec F S1024 .f32) (main_arg7 : FVec F S1024 .f32) : IVec S_ 1 :=
  let main_v0 : FVec F S1x1x4096x1024 .f32 := Host.absf main_arg0
  let main_cst : FVec F S_ .f32 := constant S_ .f32 0x7F800000#32
  let main_v1 : FVec F S1x1x4096x1024 .f32 := broadcastInDim S1x1x4096x1024 ![] bcast_S_S1x1x4096x1024 main_cst
  let main_v2 : IVec S1x1x4096x1024 1 := cmpf .olt main_v0 main_v1
  let main_c : IVec S_ 1 := constantI S_ 1 1#1
  let main_v3 : IVec S_ 1 := (fun x v => Host.reduce IntOp.andi x v reducesTo_S1x1x4096x1024_S_d0_1_2_3 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_v13 main_v16
-- ==== Kernel.lean ====
abbrev S1x1x4096x1024 : Shape := ⟨4, ![1, 1, 4096, 1024]⟩
abbrev S1024x1024 : Shape := ⟨2, ![1024, 1024]⟩
abbrev S1024 : Shape := ⟨1, ![1024]⟩
abbrev S2048x1024 : Shape := ⟨2, ![2048, 1024]⟩
abbrev S2048 : Shape := ⟨1, ![2048]⟩
abbrev S1024x64 : Shape := ⟨2, ![1024, 64]⟩
abbrev S4096x1024 : Shape := ⟨2, ![4096, 1024]⟩
abbrev S16x2x64x1024 : Shape := ⟨4, ![16, 2, 64, 1024]⟩
abbrev S16x1x64x1024 : Shape := ⟨4, ![16, 1, 64, 1024]⟩
abbrev S16x64x1024 : Shape := ⟨3, ![16, 64, 1024]⟩
abbrev S16x2x64 : Shape := ⟨3, ![16, 2, 64]⟩
abbrev S16x1x64 : Shape := ⟨3, ![16, 1, 64]⟩
abbrev S16x64 : Shape := ⟨2, ![16, 64]⟩
abbrev S64x1024 : Shape := ⟨2, ![64, 1024]⟩
abbrev S1x1024 : Shape := ⟨2, ![1, 1024]⟩
abbrev S16x4096x1024 : Shape := ⟨3, ![16, 4096, 1024]⟩
abbrev S256x1024 : Shape := ⟨2, ![256, 1024]⟩
abbrev S512x1024 : Shape := ⟨2, ![512, 1024]⟩
abbrev S1x512x1024 : Shape := ⟨3, ![1, 512, 1024]⟩
abbrev S32x1024 : Shape := ⟨2, ![32, 1024]⟩
abbrev S512x64 : Shape := ⟨2, ![512, 64]⟩
abbrev S512 : Shape := ⟨1, ![512]⟩
abbrev S512x1 : Shape := ⟨2, ![512, 1]⟩
abbrev S1x16x4096x1024 : Shape := ⟨4, ![1, 16, 4096, 1024]⟩

abbrev nBuf : Space → Nat
  | .hbm => 26
  | .vmem => 12
  | .smem => 0
  | _ => 0

abbrev bufTy : (tb : Table) → Fin (tcTables nBuf tb) → BufTy
  | .hbm, ⟨0, _⟩ => ⟨S1x1x4096x1024, .f32⟩
  | .hbm, ⟨1, _⟩ => ⟨S1024x1024, .f32⟩
  | .hbm, ⟨2, _⟩ => ⟨S1024, .f32⟩
  | .hbm, ⟨3, _⟩ => ⟨S2048x1024, .f32⟩
  | .hbm, ⟨4, _⟩ => ⟨S2048, .f32⟩
  | .hbm, ⟨5, _⟩ => ⟨S1024x64, .f32⟩
  | .hbm, ⟨6, _⟩ => ⟨S1024, .f32⟩
  | .hbm, ⟨7, _⟩ => ⟨S1024, .f32⟩
  | .hbm, ⟨8, _⟩ => ⟨S4096x1024, .f32⟩
  | .hbm, ⟨9, _⟩ => ⟨S16x2x64x1024, .f32⟩
  | .hbm, ⟨10, _⟩ => ⟨S16x1x64x1024, .f32⟩
  | .hbm, ⟨11, _⟩ => ⟨S16x64x1024, .f32⟩
  | .hbm, ⟨12, _⟩ => ⟨S1024x1024, .f32⟩
  | .hbm, ⟨13, _⟩ => ⟨S16x2x64, .f32⟩
  | .hbm, ⟨14, _⟩ => ⟨S16x1x64, .f32⟩
  | .hbm, ⟨15, _⟩ => ⟨S16x64, .f32⟩
  | .hbm, ⟨16, _⟩ => ⟨S1024, .f32⟩
  | .hbm, ⟨17, _⟩ => ⟨S1024x1024, .f32⟩
  | .hbm, ⟨18, _⟩ => ⟨S1024x1024, .bf16⟩
  | .hbm, ⟨19, _⟩ => ⟨S64x1024, .f32⟩
  | .hbm, ⟨20, _⟩ => ⟨S64x1024, .bf16⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S16x4096x1024, .f32⟩
  | .hbm, ⟨25, _⟩ => ⟨S1x16x4096x1024, .f32⟩
  | .local _ .vmem, ⟨0, _⟩ => ⟨S256x1024, .f32⟩
  | .local _ .vmem, ⟨1, _⟩ => ⟨S256x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S64x1024, .bf16⟩
  | .local _ .vmem, ⟨7, _⟩ => ⟨S1x1024, .f32⟩
  | .local _ .vmem, ⟨8, _⟩ => ⟨S1x1024, .f32⟩
  | .local _ .vmem, ⟨9, _⟩ => ⟨S1x512x1024, .f32⟩
  | .local _ .vmem, ⟨10, _⟩ => ⟨S1x512x1024, .f32⟩
  | .local _ .vmem, ⟨11, _⟩ => ⟨S256x1024, .f32⟩
  | _, _ => ⟨S1x1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c32_i32 : BitVec 32 := 32#32
  let v3 : BitVec 32 := Scalar.muli arg1 c32_i32
  v3
def k0_off1 (i : grid0.Coords) : Fin 2 → Nat :=
  let arg1 : BitVec 32 := BitVec.ofNat 32 (i 1).val
  let c32_i32 : BitVec 32 := 32#32
  let v3 : BitVec 32 := Scalar.muli arg1 c32_i32
  let v4 : BitVec 32 := v3
  let v5 : Index := Scalar.indexCast v4
  let c0 : Index := 0#32
  ![v5.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S1x1x4096x1024_S4096x1024 : S1x1x4096x1024.ShapeCasts S4096x1024
  shapeCasts_S2048x1024_S16x2x64x1024 : S2048x1024.ShapeCasts S16x2x64x1024
  slices_S16x2x64x1024_S16x1x64x1024_0_1_0_0 : S16x2x64x1024.Slices ![0, 1, 0, 0] S16x1x64x1024
  shapeCasts_S16x1x64x1024_S16x64x1024 : S16x1x64x1024.ShapeCasts S16x64x1024
  shapeCasts_S16x64x1024_S1024x1024 : S16x64x1024.ShapeCasts S1024x1024
  shapeCasts_S2048_S16x2x64 : S2048.ShapeCasts S16x2x64
  slices_S16x2x64_S16x1x64_0_1_0 : S16x2x64.Slices ![0, 1, 0] S16x1x64
  shapeCasts_S16x1x64_S16x64 : S16x1x64.ShapeCasts S16x64
  shapeCasts_S16x64_S1024 : S16x64.ShapeCasts S1024
  transposes_S1024x1024_S1024x1024_1_0 : S1024x1024.Transposes [1, 0] S1024x1024
  bitsLt_bf16_f32 : FTy.bits .bf16 < FTy.bits .f32
  transposes_S1024x64_S64x1024_1_0 : S1024x64.Transposes [1, 0] S64x1024
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  h_S32x1024 : 0 < S32x1024.numel
  shapeCasts_S32x1024_S512x64 : S32x1024.ShapeCasts S512x64
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S512x1024_S512 : S512x1024.Reduces [1] S512
  shapeCasts_S512_S512x1 : S512.ShapeCasts S512x1
  broadcasts_S512x1_S512x1024 : S512x1.Broadcasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  shapeCasts_S16x4096x1024_S1x16x4096x1024 : S16x4096x1024.ShapeCasts S1x16x4096x1024
  dot_S256x1024_S1024x1024_S256x1024_1_0_0_1_n_n_wf : DotDims.WF S256x1024 S1024x1024 S256x1024 [1] [0] [0] [1] [] []
  dot_S512x64_S64x1024_S512x1024_1_0_0_1_n_n_wf : DotDims.WF S512x64 S64x1024 S512x1024 [1] [0] [0] [1] [] []
  hrank0 : 0 < grid0.rank
  k0_mult1_dvd : ∀ i : grid0.Coords, 32 ∣ (k0_mult1 i).toNat
  k0_off1_inb : ∀ i : grid0.Coords, ∀ a, (k0_off1 i) a + S32x1024.size a ≤ S256x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1024.size a ≤ S64x1024.size a
  hwx0_4 : ∀ i : grid0.Coords, EltTy.bits .bf16 = 32 ∨ (Rect.block (s := S64x1024) S64x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x1024.size a ≤ S16x4096x1024.size a
  hwx0_7 : ∀ i : grid0.Coords, EltTy.bits .f32 = 32 ∨ (Rect.block (s := S16x4096x1024) S1x512x1024.size (cc0_transform_7 i) (hinb0_7 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S64x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S1x512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1x1x4096x1024 : Shape := ⟨4, ![1, 1, 4096, 1024]⟩
abbrev S1024x1024 : Shape := ⟨2, ![1024, 1024]⟩
abbrev S1024 : Shape := ⟨1, ![1024]⟩
abbrev S2048x1024 : Shape := ⟨2, ![2048, 1024]⟩
abbrev S2048 : Shape := ⟨1, ![2048]⟩
abbrev S1024x64 : Shape := ⟨2, ![1024, 64]⟩
abbrev S1x4096x1x1024 : Shape := ⟨4, ![1, 4096, 1, 1024]⟩
abbrev S1x4096x1024 : Shape := ⟨3, ![1, 4096, 1024]⟩
abbrev S1x1x1x1024 : Shape := ⟨4, ![1, 1, 1, 1024]⟩
abbrev S1x4096x16x1x64 : Shape := ⟨5, ![1, 4096, 16, 1, 64]⟩
abbrev S1x4096x2048 : Shape := ⟨3, ![1, 4096, 2048]⟩
abbrev S1x1x2048 : Shape := ⟨3, ![1, 1, 2048]⟩
abbrev S1x4096x16x1x128 : Shape := ⟨5, ![1, 4096, 16, 1, 128]⟩
abbrev S1x4096x16x1x1024 : Shape := ⟨5, ![1, 4096, 16, 1, 1024]⟩
abbrev S1x1x1x1x1024 : Shape := ⟨5, ![1, 1, 1, 1, 1024]⟩
abbrev S1x16x4096x1024 : Shape := ⟨4, ![1, 16, 4096, 1024]⟩
abbrev S_ : Shape := ⟨0, ![]⟩
abbrev S1x16x4096 : Shape := ⟨3, ![1, 16, 4096]⟩
abbrev S1x16x4096x1 : Shape := ⟨4, ![1, 16, 4096, 1]⟩

abbrev nBuf : Space → Nat
  | .hbm => 45
  | .vmem => 0
  | .smem => 0
  | _ => 0

abbrev bufTy : (tb : Table) → Fin (tcTables nBuf tb) → BufTy
  | .hbm, ⟨0, _⟩ => ⟨S1x1x4096x1024, .f32⟩
  | .hbm, ⟨1, _⟩ => ⟨S1024x1024, .f32⟩
  | .hbm, ⟨2, _⟩ => ⟨S1024, .f32⟩
  | .hbm, ⟨3, _⟩ => ⟨S2048x1024, .f32⟩
  | .hbm, ⟨4, _⟩ => ⟨S2048, .f32⟩
  | .hbm, ⟨5, _⟩ => ⟨S1024x64, .f32⟩
  | .hbm, ⟨6, _⟩ => ⟨S1024, .f32⟩
  | .hbm, ⟨7, _⟩ => ⟨S1024, .f32⟩
  | .hbm, ⟨8, _⟩ => ⟨S1x4096x1x1024, .f32⟩
  | .hbm, ⟨9, _⟩ => ⟨S1x4096x1024, .f32⟩
  | .hbm, ⟨10, _⟩ => ⟨S1x4096x1x1024, .f32⟩
  | .hbm, ⟨11, _⟩ => ⟨S1x1x1x1024, .f32⟩
  | .hbm, ⟨12, _⟩ => ⟨S1x4096x1x1024, .f32⟩
  | .hbm, ⟨13, _⟩ => ⟨S1x4096x1x1024, .f32⟩
  | .hbm, ⟨14, _⟩ => ⟨S1x4096x16x1x64, .f32⟩
  | .hbm, ⟨15, _⟩ => ⟨S1x4096x2048, .f32⟩
  | .hbm, ⟨16, _⟩ => ⟨S1x1x2048, .f32⟩
  | .hbm, ⟨17, _⟩ => ⟨S1x4096x2048, .f32⟩
  | .hbm, ⟨18, _⟩ => ⟨S1x4096x2048, .f32⟩
  | .hbm, ⟨19, _⟩ => ⟨S1x4096x16x1x128, .f32⟩
  | .hbm, ⟨20, _⟩ => ⟨S1x4096x16x1x64, .f32⟩
  | .hbm, ⟨21, _⟩ => ⟨S1x4096x16x1x1024, .f32⟩
  | .hbm, ⟨22, _⟩ => ⟨S1x1x1x1x1024, .f32⟩
  | .hbm, ⟨23, _⟩ => ⟨S1x4096x16x1x1024, .f32⟩
  | .hbm, ⟨24, _⟩ => ⟨S1x4096x16x1x1024, .f32⟩
  | .hbm, ⟨25, _⟩ => ⟨S1x16x4096x1024, .f32⟩
  | .hbm, ⟨26, _⟩ => ⟨S1x1x4096x1024, .f32⟩
  | .hbm, ⟨27, _⟩ => ⟨S1x16x4096x1024, .f32⟩
  | .hbm, ⟨28, _⟩ => ⟨S1x16x4096x1024, .f32⟩
  | .hbm, ⟨29, _⟩ => ⟨S1x16x4096x1024, .f32⟩
  | .hbm, ⟨30, _⟩ => ⟨S_, .f32⟩
  | .hbm, ⟨31, _⟩ => ⟨S1x16x4096, .f32⟩
  | .hbm, ⟨32, _⟩ => ⟨S1x16x4096x1, .f32⟩
  | .hbm, ⟨33, _⟩ => ⟨S_, .f32⟩
  | .hbm, ⟨34, _⟩ => ⟨S1x16x4096x1, .f32⟩
  | .hbm, ⟨35, _⟩ => ⟨S1x16x4096x1, .f32⟩
  | .hbm, ⟨36, _⟩ => ⟨S_, .f32⟩
  | .hbm, ⟨37, _⟩ => ⟨S1x16x4096x1, .f32⟩
  | .hbm, ⟨38, _⟩ => ⟨S1x16x4096x1, .f32⟩
  | .hbm, ⟨39, _⟩ => ⟨S1x16x4096x1, .f32⟩
  | .hbm, ⟨40, _⟩ => ⟨S1x16x4096x1024, .f32⟩
  | .hbm, ⟨41, _⟩ => ⟨S1x16x4096x1024, .f32⟩
  | .hbm, ⟨42, _⟩ => ⟨S1x1x1x1024, .f32⟩
  | .hbm, ⟨43, _⟩ => ⟨S1x16x4096x1024, .f32⟩
  | .hbm, ⟨44, _⟩ => ⟨S1x16x4096x1024, .f32⟩
  | _, _ => ⟨S1x1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst : Ref sig .tc := ⟨.hbm, 30, rfl⟩
abbrev main_v22 : Ref sig .tc := ⟨.hbm, 31, rfl⟩
abbrev main_v23 : Ref sig .tc := ⟨.hbm, 32, rfl⟩
abbrev main_cst_0 : Ref sig .tc := ⟨.hbm, 33, rfl⟩
abbrev main_v24 : Ref sig .tc := ⟨.hbm, 34, rfl⟩
abbrev main_v25 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]

class Facts₀ : Prop where
  shapeCasts_S1x1x4096x1024_S1x4096x1x1024 : S1x1x4096x1024.ShapeCasts S1x4096x1x1024
  shapeCasts_S1x4096x1x1024_S1x4096x1024 : S1x4096x1x1024.ShapeCasts S1x4096x1024
  bcast_S1024_S1x1x1x1024_3 : S1024.BroadcastsInDim S1x1x1x1024 (![3] : Fin 1 → Fin S1x1x1x1024.rank)
  bcast_S1x1x1x1024_S1x4096x1x1024_0_1_2_3 : S1x1x1x1024.BroadcastsInDim S1x4096x1x1024 (![0, 1, 2, 3] : Fin 4 → Fin S1x4096x1x1024.rank)
  shapeCasts_S1x4096x1x1024_S1x4096x16x1x64 : S1x4096x1x1024.ShapeCasts S1x4096x16x1x64
  bcast_S2048_S1x1x2048_2 : S2048.BroadcastsInDim S1x1x2048 (![2] : Fin 1 → Fin S1x1x2048.rank)
  bcast_S1x1x2048_S1x4096x2048_0_1_2 : S1x1x2048.BroadcastsInDim S1x4096x2048 (![0, 1, 2] : Fin 3 → Fin S1x4096x2048.rank)
  shapeCasts_S1x4096x2048_S1x4096x16x1x128 : S1x4096x2048.ShapeCasts S1x4096x16x1x128
  slices_S1x4096x16x1x128_S1x4096x16x1x64_0_0_0_0_64 : S1x4096x16x1x128.Slices ![0, 0, 0, 0, 64] S1x4096x16x1x64
  bcast_S1024_S1x1x1x1x1024_4 : S1024.BroadcastsInDim S1x1x1x1x1024 (![4] : Fin 1 → Fin S1x1x1x1x1024.rank)
  bcast_S1x1x1x1x1024_S1x4096x16x1x1024_0_1_2_3_4 : S1x1x1x1x1024.BroadcastsInDim S1x4096x16x1x1024 (![0, 1, 2, 3, 4] : Fin 5 → Fin S1x4096x16x1x1024.rank)
  shapeCasts_S1x4096x16x1x1024_S1x16x4096x1024 : S1x4096x16x1x1024.ShapeCasts S1x16x4096x1024
  bcast_S1x4096x1024_S1x1x4096x1024_0_2_3 : S1x4096x1024.BroadcastsInDim S1x1x4096x1024 (![0, 2, 3] : Fin 3 → Fin S1x1x4096x1024.rank)
  bcast_S1x1x4096x1024_S1x16x4096x1024_0_1_2_3 : S1x1x4096x1024.BroadcastsInDim S1x16x4096x1024 (![0, 1, 2, 3] : Fin 4 → Fin S1x16x4096x1024.rank)
  reducesTo_S1x16x4096x1024_S1x16x4096_d3 : S1x16x4096x1024.ReducesTo [3] S1x16x4096
  h_S_ : 0 < S_.numel
  bcast_S1x16x4096_S1x16x4096x1_0_1_2 : S1x16x4096.BroadcastsInDim S1x16x4096x1 (![0, 1, 2] : Fin 3 → Fin S1x16x4096x1.rank)
  bcast_S_S1x16x4096x1 : S_.BroadcastsInDim S1x16x4096x1 (![] : Fin 0 → Fin S1x16x4096x1.rank)
  bcast_S1x16x4096x1_S1x16x4096x1024_0_1_2_3 : S1x16x4096x1.BroadcastsInDim S1x16x4096x1024 (![0, 1, 2, 3] : Fin 4 → Fin S1x16x4096x1024.rank)
  bcast_S1x1x1x1024_S1x16x4096x1024_0_1_2_3 : S1x1x1x1024.BroadcastsInDim S1x16x4096x1024 (![0, 1, 2, 3] : Fin 4 → Fin S1x16x4096x1024.rank)
  dot_S1x4096x1x1024_S1024x1024_S1x4096x1x1024_3_1_012_0_n_n_wf : DotDims.WF S1x4096x1x1024 S1024x1024 S1x4096x1x1024 [3] [1] [0, 1, 2] [0] [] []
  dot_S1x4096x1024_S2048x1024_S1x4096x2048_2_1_01_0_n_n_wf : DotDims.WF S1x4096x1024 S2048x1024 S1x4096x2048 [2] [1] [0, 1] [0] [] []
  dot_S1x4096x16x1x64_S1024x64_S1x4096x16x1x1024_4_1_0123_0_n_n_wf : DotDims.WF S1x4096x16x1x64 S1024x64 S1x4096x16x1x1024 [4] [1] [0, 1, 2, 3] [0] [] []

variable [Facts₀]

def dot_S1x4096x1x1024_S1024x1024_S1x4096x1x1024_3_1_012_0_n_n : DotDims S1x4096x1x1024 S1024x1024 S1x4096x1x1024 where
  lhsContracting := [3]
  rhsContracting := [1]
  lhsNonContracting := [0, 1, 2]
  rhsNonContracting := [0]
  lhsBatch := []
  rhsBatch := []
  wf := dot_S1x4096x1x1024_S1024x1024_S1x4096x1x1024_3_1_012_0_n_n_wf
def dot_S1x4096x1024_S2048x1024_S1x4096x2048_2_1_01_0_n_n : DotDims S1x4096x1024 S2048x1024 S1x4096x2048 where
  lhsContracting := [2]
  rhsContracting := [1]
  lhsNonContracting := [0, 1]
  rhsNonContracting := [0]
  lhsBatch := []
  rhsBatch := []
  wf := dot_S1x4096x1024_S2048x1024_S1x4096x2048_2_1_01_0_n_n_wf
def dot_S1x4096x16x1x64_S1024x64_S1x4096x16x1x1024_4_1_0123_0_n_n : DotDims S1x4096x16x1x64 S1024x64 S1x4096x16x1x1024 where
  lhsContracting := [4]
  rhsContracting := [1]
  lhsNonContracting := [0, 1, 2, 3]
  rhsNonContracting := [0]
  lhsBatch := []
  rhsBatch := []
  wf := dot_S1x4096x16x1x64_S1024x64_S1x4096x16x1x1024_4_1_0123_0_n_n_wf

class Facts : Prop extends Facts₀ where

variable [Facts]
-- ==== Proof.Kernel.Kit.lean ====
/-
  The pieces every later module of this program's frame is stated over: the contents of the device's buffers when the
  kernel region is entered (after the host operations before it), each window's block of its array at a grid point, the
  fact that an input window's staging buffer holds that block at every point (fetched there or not), the branch
  condition of the kernel body decided over the grid, and the staging and scratch memrefs by name.
-/
import proofs.«119540_j5360119185745_2_alg».proof.Proof.Gen.Kernel.Launch
import proofs.«119540_j5360119185745_2_alg».proof.Proof.Gen.Kernel.Skeleton
import proofs.«119540_j5360119185745_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The device's buffer contents when the region is entered: after the sixteen host operations before it. -/
abbrev V0 (c : Dev nD) : Valuation τ sig (Elt F) := StableHlo.after (List.flatten [hostOps0]) (fun b => m (c, b))
/-- The same read at a reference of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- The program is: the host operations before the region, the region, the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The condition of the body's one conditional: the second grid coordinate is zero. -/
abbrev cond0_0 (i : grid0.Coords) : Prop := (Scalar.cmpi .ne (Scalar.extui (Scalar.cmpi .eq (BitVec.ofNat 32 (i 1).val) 0#32)) 0#32) = 1#1
/-- It holds at the points that are multiples of 8: the first point of each output channel. -/
theorem hcond0_0 : ∀ t : Fin cfg0.N, cond0_0 (grid0.coords t) ↔ t.val % 8 = 0 :=
  (by decide +kernel : ∀ t : Fin grid0.N, cond0_0 (grid0.coords t) ↔ t.val % 8 = 0)

/-- No window is ever idle: the body reads every input and stores the output at every point. -/
theorem liveAt0 : ∀ (w : Fin cfg0.W) (t : Fin cfg0.N), cfg0.idle w (grid0.coords t) = false := by decide +kernel

/-! ## The memrefs the body is called with -/

/-- One staging buffer of the output window, through which its contents are stated. -/
abbrev VO0_7 : View sig .tc .vmem S1x512x1024 .f32 := (Memref.whole cc0_stg7_0 : Memref sig .tc .vmem S1x512x1024 .f32).view
abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512x1024 .f32 := win0_7.stage (cfg0.slots t 7)
abbrev hs0_7 (t : Fin cfg0.N) : (ms0_7 t).IsWhole := hstage0_7 ((cfg0.slots t 7).cast nbuf0_7)
/-- The scratch operand: a whole scoped buffer of the kernel's own. -/
abbrev scM0_0 : Memref sig .tc .vmem S256x1024 .f32 := Memref.whole cc0_scratch0
/-- The scratch as a view: what it holds is stated through it. -/
abbrev VS0_0 : View sig .tc .vmem S256x1024 .f32 := scM0_0.view

/-- The region's plain invariant, with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.Kernel.RunA.lean ====
/-
  The kernel body run once, at a grid point whose second coordinate is zero (the first point of an output channel: the value projection of the channel's 256 input rows is computed and stored into the scratch, then read back): on whole staging memrefs holding the inputs' blocks, it ends with the inputs as they were, the scratch
  and the output's staging buffer each with the pieces the stores wrote.
-/
import proofs.«119540_j5360119185745_2_alg».proof.Proof.Kernel.Kit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in the output's staging memref and in the scratch, as pieces (last first), with the proof
    that the body runs to the continuation holding the inputs as they were and the two written buffers with those pieces. -/
noncomputable def kernelRun0_A (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S64x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S256x1024 .f32) (harg10 : arg10.IsWhole) (hc0 : cond0_0 i)
    (x0 : Vec F S256x1024 .f32) (x1 : Vec F S512x1024 .f32) (x2 : Vec F S1024x1024 .bf16) (x3 : Vec F S1x1024 .f32) (x4 : Vec F S64x1024 .bf16) (x5 : Vec F S1x1024 .f32) (x6 : Vec F S1x1024 .f32) :
    Σ' (L7 : List (View.Piece (Elt F) S1x512x1024 .f32)), { LS0 : List (View.Piece (Elt F) S256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

end Cert.Kernel.Fr

end
-- ==== Proof.Kernel.RunB.lean ====
/-
  The kernel body run once, at a grid point whose second coordinate is not zero (the scratch still holds the value
  projection the channel's first point stored, and the body only reads it): on whole staging memrefs holding the inputs'
  blocks, it ends with the inputs and the scratch as they were and the output's staging buffer with the pieces the
  store wrote.
-/
import proofs.«119540_j5360119185745_2_alg».proof.Proof.Kernel.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's store leaves in the output's staging memref, as pieces, with the proof that the body runs to the
    continuation holding the inputs and the scratch as they were and the output's buffer with those pieces. -/
noncomputable def kernelRun0_B (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S64x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S256x1024 .f32) (harg10 : arg10.IsWhole) (hc0 : ¬cond0_0 i)
    (x0 : Vec F S256x1024 .f32) (x1 : Vec F S512x1024 .f32) (x2 : Vec F S1024x1024 .bf16) (x3 : Vec F S1x1024 .f32) (x4 : Vec F S64x1024 .bf16) (x5 : Vec F S1x1024 .f32) (x6 : Vec F S1x1024 .f32) (xs0 : Vec F S256x1024 .f32) :
    { L7 : List (View.Piece (Elt F) S1x512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xs0) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; isplitr; · ipureintro; exact harg10.read_unread _
    iexact HS0

end Cert.Kernel.Fr

end
-- ==== Proof.Kernel.Body.lean ====
/-
  The kernel body at every grid point. Each of the two cases (the first point of an output channel, which fills the
  scratch with the channel's value projection; every other point, which finds it there) leaves pieces that cover the
  output's staging buffer and the scratch; what they hold after point n is defined by recursion on n, the scratch of a
  later point of a channel being what the point before left; the region's invariant carries the scratch at those
  contents from point to point; and the body, run on the inputs' blocks, returns exactly that.
-/
import proofs.«119540_j5360119185745_2_alg».proof.Proof.Kernel.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces case A stores into the output's staging buffer tile it. -/
theorem cover0_A_7 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S64x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S256x1024 .f32) (harg10 : arg10.IsWhole) (hc0 : cond0_0 i)
    (x0 : Vec F S256x1024 .f32) (x1 : Vec F S512x1024 .f32) (x2 : Vec F S1024x1024 .bf16) (x3 : Vec F S1x1024 .f32) (x4 : Vec F S64x1024 .bf16) (x5 : Vec F S1x1024 .f32) (x6 : Vec F S1x1024 .f32) (y : S1x512x1024.Idx) :
    ∃ pc ∈ (kernelRun0_A c i arg2 harg2 arg3 harg3 arg4 harg4 arg5 harg5 arg6 harg6 arg7 harg7 arg8 harg8 arg9 harg9 arg10 harg10 hc0 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4 x5 x6).1 S1x512x1024.size (by sl_kernel_rfl) y

/-- What case A leaves in the output's staging buffer. -/
def out0_A_7 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S64x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S256x1024 .f32) (harg10 : arg10.IsWhole) (hc0 : cond0_0 i)
    (x0 : Vec F S256x1024 .f32) (x1 : Vec F S512x1024 .f32) (x2 : Vec F S1024x1024 .bf16) (x3 : Vec F S1x1024 .f32) (x4 : Vec F S64x1024 .bf16) (x5 : Vec F S1x1024 .f32) (x6 : Vec F S1x1024 .f32) : Vec F S1x512x1024 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 hc0 x0 x1 x2 x3 x4 x5 x6).1)

/-- The pieces case A leaves in the scratch cover it. -/
theorem scover0_A_0 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S64x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S256x1024 .f32) (harg10 : arg10.IsWhole) (hc0 : cond0_0 i)
    (x0 : Vec F S256x1024 .f32) (x1 : Vec F S512x1024 .f32) (x2 : Vec F S1024x1024 .bf16) (x3 : Vec F S1x1024 .f32) (x4 : Vec F S64x1024 .bf16) (x5 : Vec F S1x1024 .f32) (x6 : Vec F S1x1024 .f32) (y : S256x1024.Idx) :
    ∃ pc ∈ (kernelRun0_A c i arg2 harg2 arg3 harg3 arg4 harg4 arg5 harg5 arg6 harg6 arg7 harg7 arg8 harg8 arg9 harg9 arg10 harg10 hc0 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4 x5 x6).2.1 S256x1024.size (by sl_kernel_rfl) y

/-- What case A leaves in the scratch. -/
def sout0_A_0 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S64x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S256x1024 .f32) (harg10 : arg10.IsWhole) (hc0 : cond0_0 i)
    (x0 : Vec F S256x1024 .f32) (x1 : Vec F S512x1024 .f32) (x2 : Vec F S1024x1024 .bf16) (x3 : Vec F S1x1024 .f32) (x4 : Vec F S64x1024 .bf16) (x5 : Vec F S1x1024 .f32) (x6 : Vec F S1x1024 .f32) : Vec F S256x1024 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 x0 x1 x2 x3 x4 x5 x6).2.1)

/-- The pieces case B stores into the output's staging buffer tile it. -/
theorem cover0_B_7 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S64x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S256x1024 .f32) (harg10 : arg10.IsWhole) (hc0 : ¬cond0_0 i)
    (x0 : Vec F S256x1024 .f32) (x1 : Vec F S512x1024 .f32) (x2 : Vec F S1024x1024 .bf16) (x3 : Vec F S1x1024 .f32) (x4 : Vec F S64x1024 .bf16) (x5 : Vec F S1x1024 .f32) (x6 : Vec F S1x1024 .f32) (xs0 : Vec F S256x1024 .f32) (y : S1x512x1024.Idx) :
    ∃ pc ∈ (kernelRun0_B c i arg2 harg2 arg3 harg3 arg4 harg4 arg5 harg5 arg6 harg6 arg7 harg7 arg8 harg8 arg9 harg9 arg10 harg10 hc0 x0 x1 x2 x3 x4 x5 x6 xs0).1, y ∈ pc.1.set :=
  View.cover_of_tiledL (kernelRun0_B c i arg2 harg2 arg3 harg3 arg4 harg4 arg5 harg5 arg6 harg6 arg7 harg7 arg8 harg8 arg9 harg9 arg10 harg10 hc0 x0 x1 x2 x3 x4 x5 x6 xs0).1 S1x512x1024.size (by sl_kernel_rfl) y

/-- What case B leaves in the output's staging buffer. -/
def out0_B_7 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S64x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S256x1024 .f32) (harg10 : arg10.IsWhole) (hc0 : ¬cond0_0 i)
    (x0 : Vec F S256x1024 .f32) (x1 : Vec F S512x1024 .f32) (x2 : Vec F S1024x1024 .bf16) (x3 : Vec F S1x1024 .f32) (x4 : Vec F S64x1024 .bf16) (x5 : Vec F S1x1024 .f32) (x6 : Vec F S1x1024 .f32) (xs0 : Vec F S256x1024 .f32) : Vec F S1x512x1024 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 hc0 x0 x1 x2 x3 x4 x5 x6 xs0).1)

/-! ## What the output's buffer and the scratch hold after each point -/

/-- After the body at position `n`: the output's staging buffer and the scratch. At the first point of a channel the
    case that fills the scratch; elsewhere the other case, over the scratch the point before left. -/
def outsAt0 (c : Dev nD) : (n : ℕ) → n < cfg0.N → Vec F S1x512x1024 .f32 × Vec F S256x1024 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 8 = 0 then
      (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
    else
      (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2, (outsAt0 c n (Nat.lt_of_succ_lt hn)).2)

/-- At the first point of a channel. -/
theorem outsAt0_A (c : Dev nD) (t : Fin cfg0.N) (h0 : t.val % 8 = 0) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans rfl

/-- At any other point: over what the point before left in the scratch. -/
theorem outsAt0_B (c : Dev nD) (t : Fin cfg0.N) (h0 : ¬t.val % 8 = 0) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2, (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region's invariant before position `n`: before the first point the scratch at anything; afterwards the scratch at
    what the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data on core `c`: the arrays as the region finds them; after the body each input's buffer at its block and
    the output's at `outsAt0`; the invariant above; nothing owed; the array the first two windows both read held half and
    half, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
/-- The body at any point: the inputs' memrefs hold their blocks; the closed form of the condition says which case the
    point is in; the invariant hands the body the scratch (at anything at the very first point, at what the point before
    left afterwards) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0 0 t], after0_0]
  rw [show (dats m 0 c).leavesExact 1 t = owns (c : Thread nD τ) (ms0_1 t) fullShare ((dats m 0 c).after 1 t) from by
    unfold Dat.leavesExact; rw [liveAt0 1 t], after0_1]
  rw [show (dats m 0 c).leavesExact 2 t = owns (c : Thread nD τ) (ms0_2 t) fullShare ((dats m 0 c).after 2 t) from by
    unfold Dat.leavesExact; rw [liveAt0 2 t], after0_2]
  rw [show (dats m 0 c).leavesExact 3 t = owns (c : Thread nD τ) (ms0_3 t) fullShare ((dats m 0 c).after 3 t) from by
    unfold Dat.leavesExact; rw [liveAt0 3 t], after0_3]
  rw [show (dats m 0 c).leavesExact 4 t = owns (c : Thread nD τ) (ms0_4 t) fullShare ((dats m 0 c).after 4 t) from by
    unfold Dat.leavesExact; rw [liveAt0 4 t], after0_4]
  rw [show (dats m 0 c).leavesExact 5 t = owns (c : Thread nD τ) (ms0_5 t) fullShare ((dats m 0 c).after 5 t) from by
    unfold Dat.leavesExact; rw [liveAt0 5 t], after0_5]
  rw [show (dats m 0 c).leavesExact 6 t = owns (c : Thread nD τ) (ms0_6 t) fullShare ((dats m 0 c).after 6 t) from by
    unfold Dat.leavesExact; rw [liveAt0 6 t], after0_6]
  rw [show (dats m 0 c).leavesExact 7 t = owns (c : Thread nD τ) (ms0_7 t) fullShare ((dats m 0 c).after 7 t) from by
    unfold Dat.leavesExact; rw [liveAt0 7 t], after0_7]
  by_cases h0 : t.val % 8 = 0
  · rw [outsAt0_A m c t h0]
    unfold out0_A_7 sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      iintro ⟨H0, H1, H2, H3, H4, H5, H6, ⟨%e7, H7⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover0_A_7 c _ _ _ _ _ _ _ _ _ _ _ _ _ _ _ _ _ _ _ _ _ _ _ _ _ _ _)
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexists _; iexact HS0
      iintro ⟨H0, H1, H2, H3, H4, H5, H6, ⟨%e7, H7⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover0_A_7 c _ _ _ _ _ _ _ _ _ _ _ _ _ _ _ _ _ _ _ _ _ _ _ _ _ _ _)
  · rw [outsAt0_B m c t h0]
    unfold out0_B_7; (try dsimp only)
    have hz : t.val ≠ 0 := fun e => h0 (by rw [e])
    rw [PhiS_castSucc m c t, PhiS_pos m c _ _ hz]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    iintro ⟨H0, H1, H2, H3, H4, H5, H6, ⟨%e7, H7⟩, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover0_B_7 c _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the plain one back: the scratch's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 128 := N_0; omega)

end Cert.Kernel.Fr

end
-- ==== Proof.Kernel.Run.lean ====
/-
  The frame run. The array of flattened input rows is read through two windows (the rows feeding a channel's value
  projection, and the residual rows), so the region holds it half and half: at entry the whole array splits into its two
  halves, one per window, and at exit the halves join again before the reshape after the region runs. Everything else is
  the plain launch of a kernel with no semaphore of its own: the scratch and the generator register enter the region's
  invariant and leave it, the buffers no window reads bypass the region, and every final array is read back.
-/
import proofs.«119540_j5360119185745_2_alg».proof.Proof.Kernel.Body

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The line after the region -/

theorem sfx_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- The reshape after the region writes its own result only, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-! ## The windows' arrays, one by one -/

/-- The distinct buffers behind the windows' arrays, each whole. -/
theorem arrBufs_eq (c : Dev nD) (Vv : (b : Ref sig .tc) → Buf (Elt F) ((c : Thread nD τ).loc b)) :
    (Pipeline.arrBufs spec0 c Vv : sProp 𝕄)
      = iprop((((c : Thread nD τ).loc main_v0) ↦{fullShare} Vv main_v0) ∗ (((c : Thread nD τ).loc main_v10) ↦{fullShare} Vv main_v10)
          ∗ (((c : Thread nD τ).loc main_v13) ↦{fullShare} Vv main_v13) ∗ (((c : Thread nD τ).loc main_v12) ↦{fullShare} Vv main_v12)
          ∗ (((c : Thread nD τ).loc main_v14) ↦{fullShare} Vv main_v14) ∗ (((c : Thread nD τ).loc main_v15) ↦{fullShare} Vv main_v15)
          ∗ (((c : Thread nD τ).loc main_v16) ↦{fullShare} Vv main_v16)) := by
  unfold Pipeline.arrBufs
  exact bigSep_eq_bigSepL_of_eq [main_v0, main_v10, main_v13, main_v12, main_v14, main_v15, main_v16] (by decide) (by decide) _

/-- The windows' arrays at their shares: the first two windows hold one array, half each. -/
theorem arrays_eq (c : Dev nD) (Fw : (w : Fin cfg0.W) → Buf (Elt F) ((cfg0.win w).arr.view.loc (c : Thread nD τ))) :
    ((dats m 0 c).arrays Fw : sProp 𝕄)
      = iprop((((c : Thread nD τ).loc main_v0) ↦{fullShare.left} Fw 0) ∗ (((c : Thread nD τ).loc main_v0) ↦{fullShare.right} Fw 1)
          ∗ (((c : Thread nD τ).loc main_v10) ↦{fullShare} Fw 2) ∗ (((c : Thread nD τ).loc main_v13) ↦{fullShare} Fw 3)
          ∗ (((c : Thread nD τ).loc main_v12) ↦{fullShare} Fw 4) ∗ (((c : Thread nD τ).loc main_v14) ↦{fullShare} Fw 5)
          ∗ (((c : Thread nD τ).loc main_v15) ↦{fullShare} Fw 6) ∗ (((c : Thread nD τ).loc main_v16) ↦{fullShare} Fw 7)) := by
  unfold Dat.arrays
  rw [bigSep_W0, (arr_whole0 0).set_eq_univ, (arr_whole0 2).set_eq_univ, (arr_whole0 3).set_eq_univ,
    (arr_whole0 4).set_eq_univ, (arr_whole0 5).set_eq_univ, (arr_whole0 6).set_eq_univ, (arr_whole0 7).set_eq_univ]
  rfl

/-- From the whole buffers to the windows' arrays: the shared array splits into its halves. -/
theorem arrays_of_bufs (c : Dev nD) (Vv : (b : Ref sig .tc) → Buf (Elt F) ((c : Thread nD τ).loc b))
    (Fw : (w : Fin cfg0.W) → Buf (Elt F) ((cfg0.win w).arr.view.loc (c : Thread nD τ))) (hF : ∀ w, Fw w = Vv (Pipeline.arrRef spec0 w)) :
    (Pipeline.arrBufs spec0 c Vv : sProp 𝕄) ⊢ (dats m 0 c).arrays Fw := by
  rw [arrBufs_eq, arrays_eq, hF 0, hF 1, hF 2, hF 3, hF 4, hF 5, hF 6, hF 7]
  iintro ⟨H0, HR⟩
  ihave H := (pointsTo_share (PosShare.mem_left_op_right fullShare)).1 $$ H0
  icases H with ⟨Hl, Hr⟩
  isplitl [Hl]; · iexact Hl
  isplitl [Hr]; · iexact Hr
  iexact HR

/-- And back: the halves join. -/
theorem bufs_of_arrays (c : Dev nD) (Vv : (b : Ref sig .tc) → Buf (Elt F) ((c : Thread nD τ).loc b))
    (Fw : (w : Fin cfg0.W) → Buf (Elt F) ((cfg0.win w).arr.view.loc (c : Thread nD τ))) (hF : ∀ w, Fw w = Vv (Pipeline.arrRef spec0 w)) :
    ((dats m 0 c).arrays Fw : sProp 𝕄) ⊢ Pipeline.arrBufs spec0 c Vv := by
  rw [arrBufs_eq, arrays_eq, hF 0, hF 1, hF 2, hF 3, hF 4, hF 5, hF 6, hF 7]
  iintro ⟨Hl, Hr, HR⟩
  isplitl [Hl Hr]
  · iapply (pointsTo_share (PosShare.mem_left_op_right fullShare)).2
    isplitl [Hl]; · iexact Hl
    iexact Hr
  iexact HR

/-! ## The contents when the region is left -/

/-- An input's array ends as it began. -/
theorem arrAt_in (c : Dev nD) (w : Fin cfg0.W) (hw : (cfg0.win w).isOut = false) (n : ℕ) :
    (dats m 0 c).arrAt w n = V m c (Pipeline.arrRef spec0 w) :=
  ((dats m 0 c).arrAt_in w hw n).trans (A_eq m c w)

/-- The arrays' final contents as one function of the reference: the inputs' entry contents, the output's final array. -/
def exitAt (c : Dev nD) (b : Ref sig .tc) : Buf (Elt F) ((c : Thread nD τ).loc b) :=
  if h : b = main_v16 then h ▸ ((dats m 0 c).arrAt 7 cfg0.N) else V m c b

theorem exitAt_arr (c : Dev nD) (w : Fin cfg0.W) : (dats m 0 c).arrAt w cfg0.N = exitAt m c (Pipeline.arrRef spec0 w) := by
  fin_cases w
  all_goals first
    | (unfold exitAt; rw [dif_neg (by decide)]; exact arrAt_in m c _ rfl _)
    | (unfold exitAt; rw [dif_pos rfl]; rfl)

/-- The valuation the line after the region starts from reads each window's array at its final contents. -/
theorem withArrays_arr (c : Dev nD) (w : Fin cfg0.W) :
    Pipeline.withArrays spec0 c (V0 m c) (fun w => (dats m 0 c).arrAt w cfg0.N) (Proc.devRef .tc (Pipeline.arrRef spec0 w))
      = (dats m 0 c).arrAt w cfg0.N := by
  unfold Pipeline.withArrays
  have h : ∃ w', Proc.devRef .tc (Pipeline.arrRef spec0 w') = Proc.devRef (τ := τ) .tc (Pipeline.arrRef spec0 w) := ⟨w, rfl⟩
  rw [dif_pos h]
  have key : ∀ (r r' : Ref sig .tc) (e : Proc.devRef .tc r' = Proc.devRef (τ := τ) .tc r) (e' : r' = r),
      cast (congrArg (fun b' : DevRef τ sig => b'.ty.Contents (Elt F)) e) (exitAt m c r') = exitAt m c r := by
    intro r r' e e'; subst e'; rfl
  suffices ∀ (w' : Fin cfg0.W) (e : Proc.devRef .tc (Pipeline.arrRef spec0 w') = Proc.devRef (τ := τ) .tc (Pipeline.arrRef spec0 w)),
      cast (congrArg (fun b' : DevRef τ sig => b'.ty.Contents (Elt F)) e) ((dats m 0 c).arrAt w' cfg0.N) = (dats m 0 c).arrAt w cfg0.N from this _ h.choose_spec
  intro w' e
  rw [exitAt_arr m c w', exitAt_arr m c w]
  exact key _ _ e (Proc.devRef_injective _ e)

/-! ## The line after the region, run from the region's exit -/

/-- The valuation at the region's exit, read at a reference of the core. -/
abbrev exitV (c : Dev nD) (b : Ref sig .tc) : Buf (Elt F) ((c : Thread nD τ).loc b) :=
  Pipeline.withArrays spec0 c (V0 m c) (fun w => (dats m 0 c).arrAt w cfg0.N) (Proc.devRef .tc b)

theorem exitV_arr (c : Dev nD) (w : Fin cfg0.W) : (dats m 0 c).arrAt w cfg0.N = exitV m c (Pipeline.arrRef spec0 w) :=
  (withArrays_arr m c w).symm

/-- The reshape leaves every window's array as it was. -/
theorem tailV_arr (c : Dev nD) (w : Fin cfg0.W) :
    (dats m 0 c).arrAt w cfg0.N = Pipeline.afterTail₀ cfgs (dats m) 0 (V0 m) [hostOps1] c (Pipeline.arrRef spec0 w) := by
  show _ = StableHlo.after (List.flatten [hostOps1]) _ (Proc.devRef .tc (Pipeline.arrRef spec0 w))
  rw [StableHlo.after_of_forall_not_mem _ _ fun op hop => ?_, withArrays_arr m c w]
  obtain ⟨ops, hops, hop⟩ := List.mem_flatten.mp hop
  exact sfx_keeps ops hops op hop w

/-- The buffers that bypass the region are, at the exit valuation, as the region found them. -/
theorem rest_exit (c : Dev nD) :
    (Pipeline.unscopedRest (Ix := Unit) (Name := ℕ) (U := UR sig nD τ) (Lvl := ℕ) spec0 c (V m c) : sProp 𝕄) = Pipeline.unscopedRest spec0 c (exitV m c) := by
  unfold Pipeline.unscopedRest
  exact bigSep_congr fun b hb => by
    show _ = (((c : Thread nD τ).loc b) ↦{fullShare} Pipeline.withArrays spec0 c (V0 m c) (fun w => (dats m 0 c).arrAt w cfg0.N) (Proc.devRef .tc b))
    rw [Pipeline.withArrays_of_ne spec0 c (V0 m c) _ b fun w e => (Finset.mem_sdiff.mp hb).2 (Finset.mem_image.mpr ⟨w, Finset.mem_univ _, e⟩)]

/-- At the region's exit the windows' arrays and the bypassing buffers are the core's unscoped buffers at the exit valuation. -/
theorem held_of_exit (c : Dev nD) :
    iprop(boundary (c : Thread nD τ) ∗ (dats m 0 c).arrays (fun w => (dats m 0 c).arrAt w cfg0.N) ∗ Pipeline.unscopedRest spec0 c (V m c))
      ⊢ (iprop(boundary (c : Thread nD τ) ∗ StableHlo.held (c : Thread nD τ) (Pipeline.ucRefs τ sig) (Pipeline.withArrays spec0 c (V0 m c) (fun w => (dats m 0 c).arrAt w cfg0.N))) : sProp 𝕄) := by
  rw [rest_exit m c, ← Pipeline.unscopedBufs_held (Ix := Unit) (Name := ℕ) (U := UR sig nD τ) (Lvl := ℕ) c _,
    Pipeline.unscopedBufs_split₀ cfgs 0 winFacts₀0.arr_unscoped c _]
  iintro ⟨Hb, Ha, Hz⟩
  isplitl [Hb]; · iexact Hb
  isplitl [Ha]
  · iapply (bufs_of_arrays m c (exitV m c) (fun w => (dats m 0 c).arrAt w cfg0.N) (exitV_arr m c)); iexact Ha
  iexact Hz

/-- After the reshape they are the windows' arrays, unchanged, and the bypassing buffers at the reshape's result. -/
theorem exit_of_held (c : Dev nD) :
    (StableHlo.held (c : Thread nD τ) (Pipeline.ucRefs τ sig) (StableHlo.after (List.flatten [hostOps1]) (Pipeline.withArrays spec0 c (V0 m c) (fun w => (dats m 0 c).arrAt w cfg0.N))) : sProp 𝕄)
      ⊢ iprop((dats m 0 c).arrays (fun w => (dats m 0 c).arrAt w cfg0.N) ∗ Pipeline.unscopedRest spec0 c (Pipeline.afterTail₀ cfgs (dats m) 0 (V0 m) [hostOps1] c)) := by
  rw [← Pipeline.unscopedBufs_held (Ix := Unit) (Name := ℕ) (U := UR sig nD τ) (Lvl := ℕ) c _,
    Pipeline.unscopedBufs_split₀ cfgs 0 winFacts₀0.arr_unscoped c _]
  iintro ⟨Ha, Hz⟩
  isplitl [Ha]
  · iapply (arrays_of_bufs m c (Pipeline.afterTail₀ cfgs (dats m) 0 (V0 m) [hostOps1] c) (fun w => (dats m 0 c).arrAt w cfg0.N) (tailV_arr m c)); iexact Ha
  iexact Hz

set_option backward.isDefEq.respectTransparency.types false in
/-- From the region's exit — the windows' arrays at their final contents, the other unscoped buffers as the region found
    them — the reshape runs and hands back the arrays as they were and the other buffers at its result. -/
theorem htail (c : Dev nD) (Q' : PUnit → sProp 𝕄) :
    iprop((iprop((dats m 0 c).arrays (fun w => (dats m 0 c).arrAt w cfg0.N) ∗ Pipeline.unscopedRest spec0 c (Pipeline.afterTail₀ cfgs (dats m) 0 (V0 m) [hostOps1] c)) -∗ Q' ⟨⟩)
        ∗ boundary (c : Thread nD τ) ∗ (dats m 0 c).arrays (fun w => (dats m 0 c).arrAt w cfg0.N) ∗ Pipeline.unscopedRest spec0 c (V m c))
      ⊢ wp frame (wpE (Pipeline.defs (fun q => (cfgs q).toPCfg (Val := Elt F)) defs₀) (Variants.lift Variants.none) (c : Thread nD τ) none) Set.univ
          (Pipeline.chain [StableHlo.seq hostOps1]) Q' := by
  show _ ⊢ wp frame _ Set.univ (Pipeline.chain ([hostOps1].map StableHlo.seq ++ [])) Q'
  iintro ⟨Hk, Hb⟩
  ihave Hb := (held_of_exit m c) $$ Hb
  iapply (Pipeline.wp_seqs_then (fun q => (cfgs q).toPCfg (Val := Elt F)) defs₀ Variants.none c (Pipeline.ucRefs τ sig) [] [hostOps1] sfx_sub sfx_fresh
    (Pipeline.withArrays spec0 c (V0 m c) (fun w => (dats m 0 c).arrAt w cfg0.N))) $$ Hb
  iintro Hb
  rw [Pipeline.chain_nil, wp_pure]
  imodintro
  iapply Hk
  icases Hb with ⟨-, H⟩
  iapply (exit_of_held m c); iexact H

/-! ## The run -/

set_option maxHeartbeats 1600000 in
set_option backward.isDefEq.respectTransparency.types false in
/-- From any memory with zero counters every weakly fair execution of the program terminates, and every final state has
    every window's array at what the proof data compute and every other unscoped buffer as the reshape after the region
    leaves it. -/
theorem run_main : θ_run defs (onTc (τ := τ) (main (F := F))) (s₀ m ρ)
    (Pipeline.FramePost cfgs (dats m) 0 (Pipeline.afterTail₀ cfgs (dats m) 0 (V0 m) [hostOps1])) := by
  classical
  have hinj : Function.Injective (Pipeline.cellOf (nD := nD) (τ := τ) (Pipeline.pin (fun q => (cfgs q).toPCfg (Val := Elt F)) (fun q => (cfgs q).toPCfg_adm))) := cellOf_inj
  exact Pipeline.θ_run_region_pf_tail (fun q => (cfgs q).toPCfg (Val := Elt F)) (fun q => (cfgs q).toPCfg_adm) (dats m) () hinj 0 winFacts₀0
    (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells _ hinj) (Pipeline.launchToks _ hinj))
    (hu₀ := by
      iintro Hu; imodintro
      isplitl [Hu]; · iapply (show (ownU _ : sProp 𝕄) ⊢ BI.own (emb₁ (initOf (Pipeline.cells _ hinj) (Pipeline.launchToks _ hinj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_of_bufs m c (V m c) _ (fun w => A_eq m c w))
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (Pipeline.afterTail₀ cfgs (dats m) 0 (V0 m) [hostOps1] c))
    (hX := fun c => by
      rw [show (Pipeline.unscopedRestP (Ix := Unit) (Name := ℕ) (U := UR sig nD τ) (Lvl := ℕ) Pipeline.Prefetch.none spec0 c (V m c) : sProp 𝕄) = Pipeline.unscopedRest spec0 c (V m c) from Pipeline.unscopedRestP_none spec0 c (V m c)]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => htail m c Q')
    (QY := fun c s => ∀ b ∈ Pipeline.restRefs sig spec0, s.mem ((c : Thread nD τ).loc b) = Pipeline.afterTail₀ cfgs (dats m) 0 (V0 m) [hostOps1] c b)
    (hY := fun c s' => by
      iintro ⟨-, HU, HSI⟩
      unfold Pipeline.unscopedRest
      imodintro
      iapply (pointsTo_read_all (Pipeline.restRefs sig spec0) (fun b => (c : Thread nD τ).loc b) (Pipeline.afterTail₀ cfgs (dats m) 0 (V0 m) [hostOps1] c) s')
      isplitl [HU] <;> iassumption)
    (hQ := fun s h c => ⟨(h c).1, (h c).2.2⟩)

end Cert.Kernel.Fr

end
-- ==== Proof.Kernel.Frame.lean ====
/-
  The frame: the program runs to the end, faults nowhere, and leaves its argument arrays as they were. No host operation
  writes an argument (each writes its own result buffer), no window's array is an argument, and the region leaves every
  buffer it does not stage as it found it.
-/
import proofs.«119540_j5360119185745_2_alg».proof.Proof.Kernel.Run

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operations before the region write their sixteen results and nothing else. -/
theorem hostOps0_writes : (hostOps0 : List (HloOp τ sig (Elt F))).Forall fun op =>
    op.writes ⊆ ([main_v0, main_v1, main_v2, main_v3, main_v4, main_v5, main_v6, main_v7, main_v8, main_v9, main_v10, main_v11, main_v12, main_v13, main_v14, main_v15].map (Proc.devRef (τ := τ) .tc)).toFinset := by
  simp only [List.Forall, StableHlo.reshape_writes, StableHlo.unary_writes, List.map_cons, List.map_nil, List.toFinset_cons, List.toFinset_nil,
    Finset.singleton_subset_iff, Finset.mem_insert, Finset.mem_singleton, true_or, or_true, and_self]

/-- The reshape after it writes its result and nothing else. -/
theorem hostOps1_writes : (hostOps1 : List (HloOp τ sig (Elt F))).Forall fun op =>
    op.writes ⊆ ([main_v17].map (Proc.devRef (τ := τ) .tc)).toFinset := by
  simp only [List.Forall, StableHlo.reshape_writes, List.map_cons, List.map_nil, List.toFinset_cons, List.toFinset_nil,
    Finset.singleton_subset_iff, Finset.mem_insert, Finset.mem_singleton, true_or, or_true, and_self]

/-- A buffer the host operations before the region do not write enters the region as launched. -/
theorem V0_kept (c : Dev nD) (r : Ref sig .tc) (hr : r ∉ [main_v0, main_v1, main_v2, main_v3, main_v4, main_v5, main_v6, main_v7, main_v8, main_v9, main_v10, main_v11, main_v12, main_v13, main_v14, main_v15]) :
    V0 m c (Proc.devRef .tc r) = m ((c : Thread nD τ).loc r) := by
  show StableHlo.after (List.flatten [hostOps0]) (fun b => m (c, b)) (Proc.devRef .tc r) = _
  rw [show List.flatten [(hostOps0 : List (HloOp τ sig (Elt F)))] = hostOps0 from List.flatten_singleton]
  exact StableHlo.after_of_writes_sub hostOps0 _ hostOps0_writes hr

/-- A buffer that is no window's array and that the reshape does not write ends as it entered the region. -/
theorem tail_kept (c : Dev nD) (r : Ref sig .tc) (hr : r ∉ [main_v17]) (hne : ∀ w, Pipeline.arrRef spec0 w ≠ r) :
    Pipeline.afterTail₀ cfgs (dats m) 0 (V0 m) [hostOps1] c r = V0 m c (Proc.devRef .tc r) := by
  show StableHlo.after (List.flatten [hostOps1]) (Pipeline.withArrays spec0 c (V0 m c) _) (Proc.devRef .tc r) = _
  rw [show List.flatten [(hostOps1 : List (HloOp τ sig (Elt F)))] = hostOps1 from List.flatten_singleton,
    StableHlo.after_of_writes_sub hostOps1 _ hostOps1_writes hr, Pipeline.withArrays_of_ne spec0 c (V0 m c) _ r hne]

theorem kept_arg0 (r : PUnit × MemSt nD τ sig (Elt F))
    (h : Pipeline.FramePost cfgs (dats m) 0 (Pipeline.afterTail₀ cfgs (dats m) 0 (V0 m) [hostOps1]) r) (c : Dev nD) :
    r.2.mem ((c : Thread nD τ).loc main_arg0) = m ((c : Thread nD τ).loc main_arg0) :=
  ((h c).2 main_arg0 (Pipeline.mem_restRefs_of main_arg0 rfl (by intro w; fin_cases w <;> decide))).trans
    ((tail_kept m c main_arg0 (by decide) (by intro w; fin_cases w <;> decide)).trans (V0_kept m c main_arg0 (by decide)))

theorem kept_arg1 (r : PUnit × MemSt nD τ sig (Elt F))
    (h : Pipeline.FramePost cfgs (dats m) 0 (Pipeline.afterTail₀ cfgs (dats m) 0 (V0 m) [hostOps1]) r) (c : Dev nD) :
    r.2.mem ((c : Thread nD τ).loc main_arg1) = m ((c : Thread nD τ).loc main_arg1) :=
  ((h c).2 main_arg1 (Pipeline.mem_restRefs_of main_arg1 rfl (by intro w; fin_cases w <;> decide))).trans
    ((tail_kept m c main_arg1 (by decide) (by intro w; fin_cases w <;> decide)).trans (V0_kept m c main_arg1 (by decide)))

theorem kept_arg2 (r : PUnit × MemSt nD τ sig (Elt F))
    (h : Pipeline.FramePost cfgs (dats m) 0 (Pipeline.afterTail₀ cfgs (dats m) 0 (V0 m) [hostOps1]) r) (c : Dev nD) :
    r.2.mem ((c : Thread nD τ).loc main_arg2) = m ((c : Thread nD τ).loc main_arg2) :=
  ((h c).2 main_arg2 (Pipeline.mem_restRefs_of main_arg2 rfl (by intro w; fin_cases w <;> decide))).trans
    ((tail_kept m c main_arg2 (by decide) (by intro w; fin_cases w <;> decide)).trans (V0_kept m c main_arg2 (by decide)))

theorem kept_arg3 (r : PUnit × MemSt nD τ sig (Elt F))
    (h : Pipeline.FramePost cfgs (dats m) 0 (Pipeline.afterTail₀ cfgs (dats m) 0 (V0 m) [hostOps1]) r) (c : Dev nD) :
    r.2.mem ((c : Thread nD τ).loc main_arg3) = m ((c : Thread nD τ).loc main_arg3) :=
  ((h c).2 main_arg3 (Pipeline.mem_restRefs_of main_arg3 rfl (by intro w; fin_cases w <;> decide))).trans
    ((tail_kept m c main_arg3 (by decide) (by intro w; fin_cases w <;> decide)).trans (V0_kept m c main_arg3 (by decide)))

theorem kept_arg4 (r : PUnit × MemSt nD τ sig (Elt F))
    (h : Pipeline.FramePost cfgs (dats m) 0 (Pipeline.afterTail₀ cfgs (dats m) 0 (V0 m) [hostOps1]) r) (c : Dev nD) :
    r.2.mem ((c : Thread nD τ).loc main_arg4) = m ((c : Thread nD τ).loc main_arg4) :=
  ((h c).2 main_arg4 (Pipeline.mem_restRefs_of main_arg4 rfl (by intro w; fin_cases w <;> decide))).trans
    ((tail_kept m c main_arg4 (by decide) (by intro w; fin_cases w <;> decide)).trans (V0_kept m c main_arg4 (by decide)))

theorem kept_arg5 (r : PUnit × MemSt nD τ sig (Elt F))
    (h : Pipeline.FramePost cfgs (dats m) 0 (Pipeline.afterTail₀ cfgs (dats m) 0 (V0 m) [hostOps1]) r) (c : Dev nD) :
    r.2.mem ((c : Thread nD τ).loc main_arg5) = m ((c : Thread nD τ).loc main_arg5) :=
  ((h c).2 main_arg5 (Pipeline.mem_restRefs_of main_arg5 rfl (by intro w; fin_cases w <;> decide))).trans
    ((tail_kept m c main_arg5 (by decide) (by intro w; fin_cases w <;> decide)).trans (V0_kept m c main_arg5 (by decide)))

theorem kept_arg6 (r : PUnit × MemSt nD τ sig (Elt F))
    (h : Pipeline.FramePost cfgs (dats m) 0 (Pipeline.afterTail₀ cfgs (dats m) 0 (V0 m) [hostOps1]) r) (c : Dev nD) :
    r.2.mem ((c : Thread nD τ).loc main_arg6) = m ((c : Thread nD τ).loc main_arg6) :=
  ((h c).2 main_arg6 (Pipeline.mem_restRefs_of main_arg6 rfl (by intro w; fin_cases w <;> decide))).trans
    ((tail_kept m c main_arg6 (by decide) (by intro w; fin_cases w <;> decide)).trans (V0_kept m c main_arg6 (by decide)))

theorem kept_arg7 (r : PUnit × MemSt nD τ sig (Elt F))
    (h : Pipeline.FramePost cfgs (dats m) 0 (Pipeline.afterTail₀ cfgs (dats m) 0 (V0 m) [hostOps1]) r) (c : Dev nD) :
    r.2.mem ((c : Thread nD τ).loc main_arg7) = m ((c : Thread nD τ).loc main_arg7) :=
  ((h c).2 main_arg7 (Pipeline.mem_restRefs_of main_arg7 rfl (by intro w; fin_cases w <;> decide))).trans
    ((tail_kept m c main_arg7 (by decide) (by intro w; fin_cases w <;> decide)).trans (V0_kept m c main_arg7 (by decide)))

/-- THE FRAME. -/
theorem frame : θ_run defs (onTc (τ := τ) (main (F := F))) ⟨m, fun _ => 0, ρ⟩ (fun r => ∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) :=
  (θ_run defs _ _).mono (fun r h c => ⟨kept_arg0 m r h c, kept_arg1 m r h c, kept_arg2 m r h c, kept_arg3 m r h c, kept_arg4 m r h c, kept_arg5 m r h c, kept_arg6 m r h c, kept_arg7 m r h c⟩) (run_main m ρ)

end Cert.Kernel.Fr

end
-- ==== Proof.KernelIdeal.Kit.lean ====
/-
  The pieces every later module of this program's frame is stated over: the contents of the device's buffers when the
  kernel region is entered (after the host operations before it), each window's block of its array at a grid point, the
  fact that an input window's staging buffer holds that block at every point (fetched there or not), the branch
  condition of the kernel body decided over the grid, and the staging and scratch memrefs by name.
-/
import proofs.«119540_j5360119185745_2_alg».proof.Proof.Gen.KernelIdeal.Launch
import proofs.«119540_j5360119185745_2_alg».proof.Proof.Gen.KernelIdeal.Skeleton
import proofs.«119540_j5360119185745_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The device's buffer contents when the region is entered: after the sixteen host operations before it. -/
abbrev V0 (c : Dev nD) : Valuation τ sig (Elt F) := StableHlo.after (List.flatten [hostOps0]) (fun b => m (c, b))
/-- The same read at a reference of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- The program is: the host operations before the region, the region, the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The condition of the body's one conditional: the second grid coordinate is zero. -/
abbrev cond0_0 (i : grid0.Coords) : Prop := (Scalar.cmpi .ne (Scalar.extui (Scalar.cmpi .eq (BitVec.ofNat 32 (i 1).val) 0#32)) 0#32) = 1#1
/-- It holds at the points that are multiples of 8: the first point of each output channel. -/
theorem hcond0_0 : ∀ t : Fin cfg0.N, cond0_0 (grid0.coords t) ↔ t.val % 8 = 0 :=
  (by decide +kernel : ∀ t : Fin grid0.N, cond0_0 (grid0.coords t) ↔ t.val % 8 = 0)

/-- No window is ever idle: the body reads every input and stores the output at every point. -/
theorem liveAt0 : ∀ (w : Fin cfg0.W) (t : Fin cfg0.N), cfg0.idle w (grid0.coords t) = false := by decide +kernel

/-! ## The memrefs the body is called with -/

/-- One staging buffer of the output window, through which its contents are stated. -/
abbrev VO0_7 : View sig .tc .vmem S1x512x1024 .f32 := (Memref.whole cc0_stg7_0 : Memref sig .tc .vmem S1x512x1024 .f32).view
abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512x1024 .f32 := win0_7.stage (cfg0.slots t 7)
abbrev hs0_7 (t : Fin cfg0.N) : (ms0_7 t).IsWhole := hstage0_7 ((cfg0.slots t 7).cast nbuf0_7)
/-- The scratch operand: a whole scoped buffer of the kernel's own. -/
abbrev scM0_0 : Memref sig .tc .vmem S256x1024 .f32 := Memref.whole cc0_scratch0
/-- The scratch as a view: what it holds is stated through it. -/
abbrev VS0_0 : View sig .tc .vmem S256x1024 .f32 := scM0_0.view

/-- The region's plain invariant, with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.KernelIdeal.RunA.lean ====
/-
  The kernel body run once, at a grid point whose second coordinate is zero (the first point of an output channel: the value projection of the channel's 256 input rows is computed and stored into the scratch, then read back): on whole staging memrefs holding the inputs' blocks, it ends with the inputs as they were, the scratch
  and the output's staging buffer each with the pieces the stores wrote.
-/
import proofs.«119540_j5360119185745_2_alg».proof.Proof.KernelIdeal.Kit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in the output's staging memref and in the scratch, as pieces (last first), with the proof
    that the body runs to the continuation holding the inputs as they were and the two written buffers with those pieces. -/
noncomputable def kernelRun0_A (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S64x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S256x1024 .f32) (harg10 : arg10.IsWhole) (hc0 : cond0_0 i)
    (x0 : Vec F S256x1024 .f32) (x1 : Vec F S512x1024 .f32) (x2 : Vec F S1024x1024 .bf16) (x3 : Vec F S1x1024 .f32) (x4 : Vec F S64x1024 .bf16) (x5 : Vec F S1x1024 .f32) (x6 : Vec F S1x1024 .f32) :
    Σ' (L7 : List (View.Piece (Elt F) S1x512x1024 .f32)), { LS0 : List (View.Piece (Elt F) S256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

end Cert.KernelIdeal.Fr

end
-- ==== Proof.KernelIdeal.RunB.lean ====
/-
  The kernel body run once, at a grid point whose second coordinate is not zero (the scratch still holds the value
  projection the channel's first point stored, and the body only reads it): on whole staging memrefs holding the inputs'
  blocks, it ends with the inputs and the scratch as they were and the output's staging buffer with the pieces the
  store wrote.
-/
import proofs.«119540_j5360119185745_2_alg».proof.Proof.KernelIdeal.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's store leaves in the output's staging memref, as pieces, with the proof that the body runs to the
    continuation holding the inputs and the scratch as they were and the output's buffer with those pieces. -/
noncomputable def kernelRun0_B (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S64x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S256x1024 .f32) (harg10 : arg10.IsWhole) (hc0 : ¬cond0_0 i)
    (x0 : Vec F S256x1024 .f32) (x1 : Vec F S512x1024 .f32) (x2 : Vec F S1024x1024 .bf16) (x3 : Vec F S1x1024 .f32) (x4 : Vec F S64x1024 .bf16) (x5 : Vec F S1x1024 .f32) (x6 : Vec F S1x1024 .f32) (xs0 : Vec F S256x1024 .f32) :
    { L7 : List (View.Piece (Elt F) S1x512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xs0) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; isplitr; · ipureintro; exact harg10.read_unread _
    iexact HS0

end Cert.KernelIdeal.Fr

end
-- ==== Proof.KernelIdeal.Body.lean ====
/-
  The kernel body at every grid point. Each of the two cases (the first point of an output channel, which fills the
  scratch with the channel's value projection; every other point, which finds it there) leaves pieces that cover the
  output's staging buffer and the scratch; what they hold after point n is defined by recursion on n, the scratch of a
  later point of a channel being what the point before left; the region's invariant carries the scratch at those
  contents from point to point; and the body, run on the inputs' blocks, returns exactly that.
-/
import proofs.«119540_j5360119185745_2_alg».proof.Proof.KernelIdeal.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces case A stores into the output's staging buffer tile it. -/
theorem cover0_A_7 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S64x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S256x1024 .f32) (harg10 : arg10.IsWhole) (hc0 : cond0_0 i)
    (x0 : Vec F S256x1024 .f32) (x1 : Vec F S512x1024 .f32) (x2 : Vec F S1024x1024 .bf16) (x3 : Vec F S1x1024 .f32) (x4 : Vec F S64x1024 .bf16) (x5 : Vec F S1x1024 .f32) (x6 : Vec F S1x1024 .f32) (y : S1x512x1024.Idx) :
    ∃ pc ∈ (kernelRun0_A c i arg2 harg2 arg3 harg3 arg4 harg4 arg5 harg5 arg6 harg6 arg7 harg7 arg8 harg8 arg9 harg9 arg10 harg10 hc0 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4 x5 x6).1 S1x512x1024.size (by sl_kernel_rfl) y

/-- What case A leaves in the output's staging buffer. -/
def out0_A_7 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S64x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S256x1024 .f32) (harg10 : arg10.IsWhole) (hc0 : cond0_0 i)
    (x0 : Vec F S256x1024 .f32) (x1 : Vec F S512x1024 .f32) (x2 : Vec F S1024x1024 .bf16) (x3 : Vec F S1x1024 .f32) (x4 : Vec F S64x1024 .bf16) (x5 : Vec F S1x1024 .f32) (x6 : Vec F S1x1024 .f32) : Vec F S1x512x1024 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 hc0 x0 x1 x2 x3 x4 x5 x6).1)

/-- The pieces case A leaves in the scratch cover it. -/
theorem scover0_A_0 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S64x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S256x1024 .f32) (harg10 : arg10.IsWhole) (hc0 : cond0_0 i)
    (x0 : Vec F S256x1024 .f32) (x1 : Vec F S512x1024 .f32) (x2 : Vec F S1024x1024 .bf16) (x3 : Vec F S1x1024 .f32) (x4 : Vec F S64x1024 .bf16) (x5 : Vec F S1x1024 .f32) (x6 : Vec F S1x1024 .f32) (y : S256x1024.Idx) :
    ∃ pc ∈ (kernelRun0_A c i arg2 harg2 arg3 harg3 arg4 harg4 arg5 harg5 arg6 harg6 arg7 harg7 arg8 harg8 arg9 harg9 arg10 harg10 hc0 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4 x5 x6).2.1 S256x1024.size (by sl_kernel_rfl) y

/-- What case A leaves in the scratch. -/
def sout0_A_0 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S64x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S256x1024 .f32) (harg10 : arg10.IsWhole) (hc0 : cond0_0 i)
    (x0 : Vec F S256x1024 .f32) (x1 : Vec F S512x1024 .f32) (x2 : Vec F S1024x1024 .bf16) (x3 : Vec F S1x1024 .f32) (x4 : Vec F S64x1024 .bf16) (x5 : Vec F S1x1024 .f32) (x6 : Vec F S1x1024 .f32) : Vec F S256x1024 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 x0 x1 x2 x3 x4 x5 x6).2.1)

/-- The pieces case B stores into the output's staging buffer tile it. -/
theorem cover0_B_7 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S64x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S256x1024 .f32) (harg10 : arg10.IsWhole) (hc0 : ¬cond0_0 i)
    (x0 : Vec F S256x1024 .f32) (x1 : Vec F S512x1024 .f32) (x2 : Vec F S1024x1024 .bf16) (x3 : Vec F S1x1024 .f32) (x4 : Vec F S64x1024 .bf16) (x5 : Vec F S1x1024 .f32) (x6 : Vec F S1x1024 .f32) (xs0 : Vec F S256x1024 .f32) (y : S1x512x1024.Idx) :
    ∃ pc ∈ (kernelRun0_B c i arg2 harg2 arg3 harg3 arg4 harg4 arg5 harg5 arg6 harg6 arg7 harg7 arg8 harg8 arg9 harg9 arg10 harg10 hc0 x0 x1 x2 x3 x4 x5 x6 xs0).1, y ∈ pc.1.set :=
  View.cover_of_tiledL (kernelRun0_B c i arg2 harg2 arg3 harg3 arg4 harg4 arg5 harg5 arg6 harg6 arg7 harg7 arg8 harg8 arg9 harg9 arg10 harg10 hc0 x0 x1 x2 x3 x4 x5 x6 xs0).1 S1x512x1024.size (by sl_kernel_rfl) y

/-- What case B leaves in the output's staging buffer. -/
def out0_B_7 (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S64x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S256x1024 .f32) (harg10 : arg10.IsWhole) (hc0 : ¬cond0_0 i)
    (x0 : Vec F S256x1024 .f32) (x1 : Vec F S512x1024 .f32) (x2 : Vec F S1024x1024 .bf16) (x3 : Vec F S1x1024 .f32) (x4 : Vec F S64x1024 .bf16) (x5 : Vec F S1x1024 .f32) (x6 : Vec F S1x1024 .f32) (xs0 : Vec F S256x1024 .f32) : Vec F S1x512x1024 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 hc0 x0 x1 x2 x3 x4 x5 x6 xs0).1)

/-! ## What the output's buffer and the scratch hold after each point -/

/-- After the body at position `n`: the output's staging buffer and the scratch. At the first point of a channel the
    case that fills the scratch; elsewhere the other case, over the scratch the point before left. -/
def outsAt0 (c : Dev nD) : (n : ℕ) → n < cfg0.N → Vec F S1x512x1024 .f32 × Vec F S256x1024 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 8 = 0 then
      (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
    else
      (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2, (outsAt0 c n (Nat.lt_of_succ_lt hn)).2)

/-- At the first point of a channel. -/
theorem outsAt0_A (c : Dev nD) (t : Fin cfg0.N) (h0 : t.val % 8 = 0) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans rfl

/-- At any other point: over what the point before left in the scratch. -/
theorem outsAt0_B (c : Dev nD) (t : Fin cfg0.N) (h0 : ¬t.val % 8 = 0) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2, (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region's invariant before position `n`: before the first point the scratch at anything; afterwards the scratch at
    what the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data on core `c`: the arrays as the region finds them; after the body each input's buffer at its block and
    the output's at `outsAt0`; the invariant above; nothing owed; the array the first two windows both read held half and
    half, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
/-- The body at any point: the inputs' memrefs hold their blocks; the closed form of the condition says which case the
    point is in; the invariant hands the body the scratch (at anything at the very first point, at what the point before
    left afterwards) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0 0 t], after0_0]
  rw [show (dats m 0 c).leavesExact 1 t = owns (c : Thread nD τ) (ms0_1 t) fullShare ((dats m 0 c).after 1 t) from by
    unfold Dat.leavesExact; rw [liveAt0 1 t], after0_1]
  rw [show (dats m 0 c).leavesExact 2 t = owns (c : Thread nD τ) (ms0_2 t) fullShare ((dats m 0 c).after 2 t) from by
    unfold Dat.leavesExact; rw [liveAt0 2 t], after0_2]
  rw [show (dats m 0 c).leavesExact 3 t = owns (c : Thread nD τ) (ms0_3 t) fullShare ((dats m 0 c).after 3 t) from by
    unfold Dat.leavesExact; rw [liveAt0 3 t], after0_3]
  rw [show (dats m 0 c).leavesExact 4 t = owns (c : Thread nD τ) (ms0_4 t) fullShare ((dats m 0 c).after 4 t) from by
    unfold Dat.leavesExact; rw [liveAt0 4 t], after0_4]
  rw [show (dats m 0 c).leavesExact 5 t = owns (c : Thread nD τ) (ms0_5 t) fullShare ((dats m 0 c).after 5 t) from by
    unfold Dat.leavesExact; rw [liveAt0 5 t], after0_5]
  rw [show (dats m 0 c).leavesExact 6 t = owns (c : Thread nD τ) (ms0_6 t) fullShare ((dats m 0 c).after 6 t) from by
    unfold Dat.leavesExact; rw [liveAt0 6 t], after0_6]
  rw [show (dats m 0 c).leavesExact 7 t = owns (c : Thread nD τ) (ms0_7 t) fullShare ((dats m 0 c).after 7 t) from by
    unfold Dat.leavesExact; rw [liveAt0 7 t], after0_7]
  by_cases h0 : t.val % 8 = 0
  · rw [outsAt0_A m c t h0]
    unfold out0_A_7 sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      iintro ⟨H0, H1, H2, H3, H4, H5, H6, ⟨%e7, H7⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover0_A_7 c _ _ _ _ _ _ _ _ _ _ _ _ _ _ _ _ _ _ _ _ _ _ _ _ _ _ _)
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexists _; iexact HS0
      iintro ⟨H0, H1, H2, H3, H4, H5, H6, ⟨%e7, H7⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover0_A_7 c _ _ _ _ _ _ _ _ _ _ _ _ _ _ _ _ _ _ _ _ _ _ _ _ _ _ _)
  · rw [outsAt0_B m c t h0]
    unfold out0_B_7; (try dsimp only)
    have hz : t.val ≠ 0 := fun e => h0 (by rw [e])
    rw [PhiS_castSucc m c t, PhiS_pos m c _ _ hz]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    iintro ⟨H0, H1, H2, H3, H4, H5, H6, ⟨%e7, H7⟩, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover0_B_7 c _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the plain one back: the scratch's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 128 := N_0; omega)

end Cert.KernelIdeal.Fr

end
-- ==== Proof.KernelIdeal.Run.lean ====
/-
  The frame run. The array of flattened input rows is read through two windows (the rows feeding a channel's value
  projection, and the residual rows), so the region holds it half and half: at entry the whole array splits into its two
  halves, one per window, and at exit the halves join again before the reshape after the region runs. Everything else is
  the plain launch of a kernel with no semaphore of its own: the scratch and the generator register enter the region's
  invariant and leave it, the buffers no window reads bypass the region, and every final array is read back.
-/
import proofs.«119540_j5360119185745_2_alg».proof.Proof.KernelIdeal.Body

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The line after the region -/

theorem sfx_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- The reshape after the region writes its own result only, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-! ## The windows' arrays, one by one -/

/-- The distinct buffers behind the windows' arrays, each whole. -/
theorem arrBufs_eq (c : Dev nD) (Vv : (b : Ref sig .tc) → Buf (Elt F) ((c : Thread nD τ).loc b)) :
    (Pipeline.arrBufs spec0 c Vv : sProp 𝕄)
      = iprop((((c : Thread nD τ).loc main_v0) ↦{fullShare} Vv main_v0) ∗ (((c : Thread nD τ).loc main_v10) ↦{fullShare} Vv main_v10)
          ∗ (((c : Thread nD τ).loc main_v13) ↦{fullShare} Vv main_v13) ∗ (((c : Thread nD τ).loc main_v12) ↦{fullShare} Vv main_v12)
          ∗ (((c : Thread nD τ).loc main_v14) ↦{fullShare} Vv main_v14) ∗ (((c : Thread nD τ).loc main_v15) ↦{fullShare} Vv main_v15)
          ∗ (((c : Thread nD τ).loc main_v16) ↦{fullShare} Vv main_v16)) := by
  unfold Pipeline.arrBufs
  exact bigSep_eq_bigSepL_of_eq [main_v0, main_v10, main_v13, main_v12, main_v14, main_v15, main_v16] (by decide) (by decide) _

/-- The windows' arrays at their shares: the first two windows hold one array, half each. -/
theorem arrays_eq (c : Dev nD) (Fw : (w : Fin cfg0.W) → Buf (Elt F) ((cfg0.win w).arr.view.loc (c : Thread nD τ))) :
    ((dats m 0 c).arrays Fw : sProp 𝕄)
      = iprop((((c : Thread nD τ).loc main_v0) ↦{fullShare.left} Fw 0) ∗ (((c : Thread nD τ).loc main_v0) ↦{fullShare.right} Fw 1)
          ∗ (((c : Thread nD τ).loc main_v10) ↦{fullShare} Fw 2) ∗ (((c : Thread nD τ).loc main_v13) ↦{fullShare} Fw 3)
          ∗ (((c : Thread nD τ).loc main_v12) ↦{fullShare} Fw 4) ∗ (((c : Thread nD τ).loc main_v14) ↦{fullShare} Fw 5)
          ∗ (((c : Thread nD τ).loc main_v15) ↦{fullShare} Fw 6) ∗ (((c : Thread nD τ).loc main_v16) ↦{fullShare} Fw 7)) := by
  unfold Dat.arrays
  rw [bigSep_W0, (arr_whole0 0).set_eq_univ, (arr_whole0 2).set_eq_univ, (arr_whole0 3).set_eq_univ,
    (arr_whole0 4).set_eq_univ, (arr_whole0 5).set_eq_univ, (arr_whole0 6).set_eq_univ, (arr_whole0 7).set_eq_univ]
  rfl

/-- From the whole buffers to the windows' arrays: the shared array splits into its halves. -/
theorem arrays_of_bufs (c : Dev nD) (Vv : (b : Ref sig .tc) → Buf (Elt F) ((c : Thread nD τ).loc b))
    (Fw : (w : Fin cfg0.W) → Buf (Elt F) ((cfg0.win w).arr.view.loc (c : Thread nD τ))) (hF : ∀ w, Fw w = Vv (Pipeline.arrRef spec0 w)) :
    (Pipeline.arrBufs spec0 c Vv : sProp 𝕄) ⊢ (dats m 0 c).arrays Fw := by
  rw [arrBufs_eq, arrays_eq, hF 0, hF 1, hF 2, hF 3, hF 4, hF 5, hF 6, hF 7]
  iintro ⟨H0, HR⟩
  ihave H := (pointsTo_share (PosShare.mem_left_op_right fullShare)).1 $$ H0
  icases H with ⟨Hl, Hr⟩
  isplitl [Hl]; · iexact Hl
  isplitl [Hr]; · iexact Hr
  iexact HR

/-- And back: the halves join. -/
theorem bufs_of_arrays (c : Dev nD) (Vv : (b : Ref sig .tc) → Buf (Elt F) ((c : Thread nD τ).loc b))
    (Fw : (w : Fin cfg0.W) → Buf (Elt F) ((cfg0.win w).arr.view.loc (c : Thread nD τ))) (hF : ∀ w, Fw w = Vv (Pipeline.arrRef spec0 w)) :
    ((dats m 0 c).arrays Fw : sProp 𝕄) ⊢ Pipeline.arrBufs spec0 c Vv := by
  rw [arrBufs_eq, arrays_eq, hF 0, hF 1, hF 2, hF 3, hF 4, hF 5, hF 6, hF 7]
  iintro ⟨Hl, Hr, HR⟩
  isplitl [Hl Hr]
  · iapply (pointsTo_share (PosShare.mem_left_op_right fullShare)).2
    isplitl [Hl]; · iexact Hl
    iexact Hr
  iexact HR

/-! ## The contents when the region is left -/

/-- An input's array ends as it began. -/
theorem arrAt_in (c : Dev nD) (w : Fin cfg0.W) (hw : (cfg0.win w).isOut = false) (n : ℕ) :
    (dats m 0 c).arrAt w n = V m c (Pipeline.arrRef spec0 w) :=
  ((dats m 0 c).arrAt_in w hw n).trans (A_eq m c w)

/-- The arrays' final contents as one function of the reference: the inputs' entry contents, the output's final array. -/
def exitAt (c : Dev nD) (b : Ref sig .tc) : Buf (Elt F) ((c : Thread nD τ).loc b) :=
  if h : b = main_v16 then h ▸ ((dats m 0 c).arrAt 7 cfg0.N) else V m c b

theorem exitAt_arr (c : Dev nD) (w : Fin cfg0.W) : (dats m 0 c).arrAt w cfg0.N = exitAt m c (Pipeline.arrRef spec0 w) := by
  fin_cases w
  all_goals first
    | (unfold exitAt; rw [dif_neg (by decide)]; exact arrAt_in m c _ rfl _)
    | (unfold exitAt; rw [dif_pos rfl]; rfl)

/-- The valuation the line after the region starts from reads each window's array at its final contents. -/
theorem withArrays_arr (c : Dev nD) (w : Fin cfg0.W) :
    Pipeline.withArrays spec0 c (V0 m c) (fun w => (dats m 0 c).arrAt w cfg0.N) (Proc.devRef .tc (Pipeline.arrRef spec0 w))
      = (dats m 0 c).arrAt w cfg0.N := by
  unfold Pipeline.withArrays
  have h : ∃ w', Proc.devRef .tc (Pipeline.arrRef spec0 w') = Proc.devRef (τ := τ) .tc (Pipeline.arrRef spec0 w) := ⟨w, rfl⟩
  rw [dif_pos h]
  have key : ∀ (r r' : Ref sig .tc) (e : Proc.devRef .tc r' = Proc.devRef (τ := τ) .tc r) (e' : r' = r),
      cast (congrArg (fun b' : DevRef τ sig => b'.ty.Contents (Elt F)) e) (exitAt m c r') = exitAt m c r := by
    intro r r' e e'; subst e'; rfl
  suffices ∀ (w' : Fin cfg0.W) (e : Proc.devRef .tc (Pipeline.arrRef spec0 w') = Proc.devRef (τ := τ) .tc (Pipeline.arrRef spec0 w)),
      cast (congrArg (fun b' : DevRef τ sig => b'.ty.Contents (Elt F)) e) ((dats m 0 c).arrAt w' cfg0.N) = (dats m 0 c).arrAt w cfg0.N from this _ h.choose_spec
  intro w' e
  rw [exitAt_arr m c w', exitAt_arr m c w]
  exact key _ _ e (Proc.devRef_injective _ e)

/-! ## The line after the region, run from the region's exit -/

/-- The valuation at the region's exit, read at a reference of the core. -/
abbrev exitV (c : Dev nD) (b : Ref sig .tc) : Buf (Elt F) ((c : Thread nD τ).loc b) :=
  Pipeline.withArrays spec0 c (V0 m c) (fun w => (dats m 0 c).arrAt w cfg0.N) (Proc.devRef .tc b)

theorem exitV_arr (c : Dev nD) (w : Fin cfg0.W) : (dats m 0 c).arrAt w cfg0.N = exitV m c (Pipeline.arrRef spec0 w) :=
  (withArrays_arr m c w).symm

/-- The reshape leaves every window's array as it was. -/
theorem tailV_arr (c : Dev nD) (w : Fin cfg0.W) :
    (dats m 0 c).arrAt w cfg0.N = Pipeline.afterTail₀ cfgs (dats m) 0 (V0 m) [hostOps1] c (Pipeline.arrRef spec0 w) := by
  show _ = StableHlo.after (List.flatten [hostOps1]) _ (Proc.devRef .tc (Pipeline.arrRef spec0 w))
  rw [StableHlo.after_of_forall_not_mem _ _ fun op hop => ?_, withArrays_arr m c w]
  obtain ⟨ops, hops, hop⟩ := List.mem_flatten.mp hop
  exact sfx_keeps ops hops op hop w

/-- The buffers that bypass the region are, at the exit valuation, as the region found them. -/
theorem rest_exit (c : Dev nD) :
    (Pipeline.unscopedRest (Ix := Unit) (Name := ℕ) (U := UR sig nD τ) (Lvl := ℕ) spec0 c (V m c) : sProp 𝕄) = Pipeline.unscopedRest spec0 c (exitV m c) := by
  unfold Pipeline.unscopedRest
  exact bigSep_congr fun b hb => by
    show _ = (((c : Thread nD τ).loc b) ↦{fullShare} Pipeline.withArrays spec0 c (V0 m c) (fun w => (dats m 0 c).arrAt w cfg0.N) (Proc.devRef .tc b))
    rw [Pipeline.withArrays_of_ne spec0 c (V0 m c) _ b fun w e => (Finset.mem_sdiff.mp hb).2 (Finset.mem_image.mpr ⟨w, Finset.mem_univ _, e⟩)]

/-- At the region's exit the windows' arrays and the bypassing buffers are the core's unscoped buffers at the exit valuation. -/
theorem held_of_exit (c : Dev nD) :
    iprop(boundary (c : Thread nD τ) ∗ (dats m 0 c).arrays (fun w => (dats m 0 c).arrAt w cfg0.N) ∗ Pipeline.unscopedRest spec0 c (V m c))
      ⊢ (iprop(boundary (c : Thread nD τ) ∗ StableHlo.held (c : Thread nD τ) (Pipeline.ucRefs τ sig) (Pipeline.withArrays spec0 c (V0 m c) (fun w => (dats m 0 c).arrAt w cfg0.N))) : sProp 𝕄) := by
  rw [rest_exit m c, ← Pipeline.unscopedBufs_held (Ix := Unit) (Name := ℕ) (U := UR sig nD τ) (Lvl := ℕ) c _,
    Pipeline.unscopedBufs_split₀ cfgs 0 winFacts₀0.arr_unscoped c _]
  iintro ⟨Hb, Ha, Hz⟩
  isplitl [Hb]; · iexact Hb
  isplitl [Ha]
  · iapply (bufs_of_arrays m c (exitV m c) (fun w => (dats m 0 c).arrAt w cfg0.N) (exitV_arr m c)); iexact Ha
  iexact Hz

/-- After the reshape they are the windows' arrays, unchanged, and the bypassing buffers at the reshape's result. -/
theorem exit_of_held (c : Dev nD) :
    (StableHlo.held (c : Thread nD τ) (Pipeline.ucRefs τ sig) (StableHlo.after (List.flatten [hostOps1]) (Pipeline.withArrays spec0 c (V0 m c) (fun w => (dats m 0 c).arrAt w cfg0.N))) : sProp 𝕄)
      ⊢ iprop((dats m 0 c).arrays (fun w => (dats m 0 c).arrAt w cfg0.N) ∗ Pipeline.unscopedRest spec0 c (Pipeline.afterTail₀ cfgs (dats m) 0 (V0 m) [hostOps1] c)) := by
  rw [← Pipeline.unscopedBufs_held (Ix := Unit) (Name := ℕ) (U := UR sig nD τ) (Lvl := ℕ) c _,
    Pipeline.unscopedBufs_split₀ cfgs 0 winFacts₀0.arr_unscoped c _]
  iintro ⟨Ha, Hz⟩
  isplitl [Ha]
  · iapply (arrays_of_bufs m c (Pipeline.afterTail₀ cfgs (dats m) 0 (V0 m) [hostOps1] c) (fun w => (dats m 0 c).arrAt w cfg0.N) (tailV_arr m c)); iexact Ha
  iexact Hz

set_option backward.isDefEq.respectTransparency.types false in
/-- From the region's exit — the windows' arrays at their final contents, the other unscoped buffers as the region found
    them — the reshape runs and hands back the arrays as they were and the other buffers at its result. -/
theorem htail (c : Dev nD) (Q' : PUnit → sProp 𝕄) :
    iprop((iprop((dats m 0 c).arrays (fun w => (dats m 0 c).arrAt w cfg0.N) ∗ Pipeline.unscopedRest spec0 c (Pipeline.afterTail₀ cfgs (dats m) 0 (V0 m) [hostOps1] c)) -∗ Q' ⟨⟩)
        ∗ boundary (c : Thread nD τ) ∗ (dats m 0 c).arrays (fun w => (dats m 0 c).arrAt w cfg0.N) ∗ Pipeline.unscopedRest spec0 c (V m c))
      ⊢ wp frame (wpE (Pipeline.defs (fun q => (cfgs q).toPCfg (Val := Elt F)) defs₀) (Variants.lift Variants.none) (c : Thread nD τ) none) Set.univ
          (Pipeline.chain [StableHlo.seq hostOps1]) Q' := by
  show _ ⊢ wp frame _ Set.univ (Pipeline.chain ([hostOps1].map StableHlo.seq ++ [])) Q'
  iintro ⟨Hk, Hb⟩
  ihave Hb := (held_of_exit m c) $$ Hb
  iapply (Pipeline.wp_seqs_then (fun q => (cfgs q).toPCfg (Val := Elt F)) defs₀ Variants.none c (Pipeline.ucRefs τ sig) [] [hostOps1] sfx_sub sfx_fresh
    (Pipeline.withArrays spec0 c (V0 m c) (fun w => (dats m 0 c).arrAt w cfg0.N))) $$ Hb
  iintro Hb
  rw [Pipeline.chain_nil, wp_pure]
  imodintro
  iapply Hk
  icases Hb with ⟨-, H⟩
  iapply (exit_of_held m c); iexact H

/-! ## The run -/

set_option maxHeartbeats 1600000 in
set_option backward.isDefEq.respectTransparency.types false in
/-- From any memory with zero counters every weakly fair execution of the program terminates, and every final state has
    every window's array at what the proof data compute and every other unscoped buffer as the reshape after the region
    leaves it. -/
theorem run_main : θ_run defs (onTc (τ := τ) (main (F := F))) (s₀ m ρ)
    (Pipeline.FramePost cfgs (dats m) 0 (Pipeline.afterTail₀ cfgs (dats m) 0 (V0 m) [hostOps1])) := by
  classical
  have hinj : Function.Injective (Pipeline.cellOf (nD := nD) (τ := τ) (Pipeline.pin (fun q => (cfgs q).toPCfg (Val := Elt F)) (fun q => (cfgs q).toPCfg_adm))) := cellOf_inj
  exact Pipeline.θ_run_region_pf_tail (fun q => (cfgs q).toPCfg (Val := Elt F)) (fun q => (cfgs q).toPCfg_adm) (dats m) () hinj 0 winFacts₀0
    (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells _ hinj) (Pipeline.launchToks _ hinj))
    (hu₀ := by
      iintro Hu; imodintro
      isplitl [Hu]; · iapply (show (ownU _ : sProp 𝕄) ⊢ BI.own (emb₁ (initOf (Pipeline.cells _ hinj) (Pipeline.launchToks _ hinj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_of_bufs m c (V m c) _ (fun w => A_eq m c w))
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (Pipeline.afterTail₀ cfgs (dats m) 0 (V0 m) [hostOps1] c))
    (hX := fun c => by
      rw [show (Pipeline.unscopedRestP (Ix := Unit) (Name := ℕ) (U := UR sig nD τ) (Lvl := ℕ) Pipeline.Prefetch.none spec0 c (V m c) : sProp 𝕄) = Pipeline.unscopedRest spec0 c (V m c) from Pipeline.unscopedRestP_none spec0 c (V m c)]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => htail m c Q')
    (QY := fun c s => ∀ b ∈ Pipeline.restRefs sig spec0, s.mem ((c : Thread nD τ).loc b) = Pipeline.afterTail₀ cfgs (dats m) 0 (V0 m) [hostOps1] c b)
    (hY := fun c s' => by
      iintro ⟨-, HU, HSI⟩
      unfold Pipeline.unscopedRest
      imodintro
      iapply (pointsTo_read_all (Pipeline.restRefs sig spec0) (fun b => (c : Thread nD τ).loc b) (Pipeline.afterTail₀ cfgs (dats m) 0 (V0 m) [hostOps1] c) s')
      isplitl [HU] <;> iassumption)
    (hQ := fun s h c => ⟨(h c).1, (h c).2.2⟩)

end Cert.KernelIdeal.Fr

end
-- ==== Proof.KernelIdeal.Frame.lean ====
/-
  The frame: the program runs to the end, faults nowhere, and leaves its argument arrays as they were. No host operation
  writes an argument (each writes its own result buffer), no window's array is an argument, and the region leaves every
  buffer it does not stage as it found it.
-/
import proofs.«119540_j5360119185745_2_alg».proof.Proof.KernelIdeal.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operations before the region write their sixteen results and nothing else. -/
theorem hostOps0_writes : (hostOps0 : List (HloOp τ sig (Elt F))).Forall fun op =>
    op.writes ⊆ ([main_v0, main_v1, main_v2, main_v3, main_v4, main_v5, main_v6, main_v7, main_v8, main_v9, main_v10, main_v11, main_v12, main_v13, main_v14, main_v15].map (Proc.devRef (τ := τ) .tc)).toFinset := by
  simp only [List.Forall, StableHlo.reshape_writes, StableHlo.unary_writes, List.map_cons, List.map_nil, List.toFinset_cons, List.toFinset_nil,
    Finset.singleton_subset_iff, Finset.mem_insert, Finset.mem_singleton, true_or, or_true, and_self]

/-- The reshape after it writes its result and nothing else. -/
theorem hostOps1_writes : (hostOps1 : List (HloOp τ sig (Elt F))).Forall fun op =>
    op.writes ⊆ ([main_v17].map (Proc.devRef (τ := τ) .tc)).toFinset := by
  simp only [List.Forall, StableHlo.reshape_writes, List.map_cons, List.map_nil, List.toFinset_cons, List.toFinset_nil,
    Finset.singleton_subset_iff, Finset.mem_insert, Finset.mem_singleton, true_or, or_true, and_self]

/-- A buffer the host operations before the region do not write enters the region as launched. -/
theorem V0_kept (c : Dev nD) (r : Ref sig .tc) (hr : r ∉ [main_v0, main_v1, main_v2, main_v3, main_v4, main_v5, main_v6, main_v7, main_v8, main_v9, main_v10, main_v11, main_v12, main_v13, main_v14, main_v15]) :
    V0 m c (Proc.devRef .tc r) = m ((c : Thread nD τ).loc r) := by
  show StableHlo.after (List.flatten [hostOps0]) (fun b => m (c, b)) (Proc.devRef .tc r) = _
  rw [show List.flatten [(hostOps0 : List (HloOp τ sig (Elt F)))] = hostOps0 from List.flatten_singleton]
  exact StableHlo.after_of_writes_sub hostOps0 _ hostOps0_writes hr

/-- A buffer that is no window's array and that the reshape does not write ends as it entered the region. -/
theorem tail_kept (c : Dev nD) (r : Ref sig .tc) (hr : r ∉ [main_v17]) (hne : ∀ w, Pipeline.arrRef spec0 w ≠ r) :
    Pipeline.afterTail₀ cfgs (dats m) 0 (V0 m) [hostOps1] c r = V0 m c (Proc.devRef .tc r) := by
  show StableHlo.after (List.flatten [hostOps1]) (Pipeline.withArrays spec0 c (V0 m c) _) (Proc.devRef .tc r) = _
  rw [show List.flatten [(hostOps1 : List (HloOp τ sig (Elt F)))] = hostOps1 from List.flatten_singleton,
    StableHlo.after_of_writes_sub hostOps1 _ hostOps1_writes hr, Pipeline.withArrays_of_ne spec0 c (V0 m c) _ r hne]

theorem kept_arg0 (r : PUnit × MemSt nD τ sig (Elt F))
    (h : Pipeline.FramePost cfgs (dats m) 0 (Pipeline.afterTail₀ cfgs (dats m) 0 (V0 m) [hostOps1]) r) (c : Dev nD) :
    r.2.mem ((c : Thread nD τ).loc main_arg0) = m ((c : Thread nD τ).loc main_arg0) :=
  ((h c).2 main_arg0 (Pipeline.mem_restRefs_of main_arg0 rfl (by intro w; fin_cases w <;> decide))).trans
    ((tail_kept m c main_arg0 (by decide) (by intro w; fin_cases w <;> decide)).trans (V0_kept m c main_arg0 (by decide)))

theorem kept_arg1 (r : PUnit × MemSt nD τ sig (Elt F))
    (h : Pipeline.FramePost cfgs (dats m) 0 (Pipeline.afterTail₀ cfgs (dats m) 0 (V0 m) [hostOps1]) r) (c : Dev nD) :
    r.2.mem ((c : Thread nD τ).loc main_arg1) = m ((c : Thread nD τ).loc main_arg1) :=
  ((h c).2 main_arg1 (Pipeline.mem_restRefs_of main_arg1 rfl (by intro w; fin_cases w <;> decide))).trans
    ((tail_kept m c main_arg1 (by decide) (by intro w; fin_cases w <;> decide)).trans (V0_kept m c main_arg1 (by decide)))

theorem kept_arg2 (r : PUnit × MemSt nD τ sig (Elt F))
    (h : Pipeline.FramePost cfgs (dats m) 0 (Pipeline.afterTail₀ cfgs (dats m) 0 (V0 m) [hostOps1]) r) (c : Dev nD) :
    r.2.mem ((c : Thread nD τ).loc main_arg2) = m ((c : Thread nD τ).loc main_arg2) :=
  ((h c).2 main_arg2 (Pipeline.mem_restRefs_of main_arg2 rfl (by intro w; fin_cases w <;> decide))).trans
    ((tail_kept m c main_arg2 (by decide) (by intro w; fin_cases w <;> decide)).trans (V0_kept m c main_arg2 (by decide)))

theorem kept_arg3 (r : PUnit × MemSt nD τ sig (Elt F))
    (h : Pipeline.FramePost cfgs (dats m) 0 (Pipeline.afterTail₀ cfgs (dats m) 0 (V0 m) [hostOps1]) r) (c : Dev nD) :
    r.2.mem ((c : Thread nD τ).loc main_arg3) = m ((c : Thread nD τ).loc main_arg3) :=
  ((h c).2 main_arg3 (Pipeline.mem_restRefs_of main_arg3 rfl (by intro w; fin_cases w <;> decide))).trans
    ((tail_kept m c main_arg3 (by decide) (by intro w; fin_cases w <;> decide)).trans (V0_kept m c main_arg3 (by decide)))

theorem kept_arg4 (r : PUnit × MemSt nD τ sig (Elt F))
    (h : Pipeline.FramePost cfgs (dats m) 0 (Pipeline.afterTail₀ cfgs (dats m) 0 (V0 m) [hostOps1]) r) (c : Dev nD) :
    r.2.mem ((c : Thread nD τ).loc main_arg4) = m ((c : Thread nD τ).loc main_arg4) :=
  ((h c).2 main_arg4 (Pipeline.mem_restRefs_of main_arg4 rfl (by intro w; fin_cases w <;> decide))).trans
    ((tail_kept m c main_arg4 (by decide) (by intro w; fin_cases w <;> decide)).trans (V0_kept m c main_arg4 (by decide)))

theorem kept_arg5 (r : PUnit × MemSt nD τ sig (Elt F))
    (h : Pipeline.FramePost cfgs (dats m) 0 (Pipeline.afterTail₀ cfgs (dats m) 0 (V0 m) [hostOps1]) r) (c : Dev nD) :
    r.2.mem ((c : Thread nD τ).loc main_arg5) = m ((c : Thread nD τ).loc main_arg5) :=
  ((h c).2 main_arg5 (Pipeline.mem_restRefs_of main_arg5 rfl (by intro w; fin_cases w <;> decide))).trans
    ((tail_kept m c main_arg5 (by decide) (by intro w; fin_cases w <;> decide)).trans (V0_kept m c main_arg5 (by decide)))

theorem kept_arg6 (r : PUnit × MemSt nD τ sig (Elt F))
    (h : Pipeline.FramePost cfgs (dats m) 0 (Pipeline.afterTail₀ cfgs (dats m) 0 (V0 m) [hostOps1]) r) (c : Dev nD) :
    r.2.mem ((c : Thread nD τ).loc main_arg6) = m ((c : Thread nD τ).loc main_arg6) :=
  ((h c).2 main_arg6 (Pipeline.mem_restRefs_of main_arg6 rfl (by intro w; fin_cases w <;> decide))).trans
    ((tail_kept m c main_arg6 (by decide) (by intro w; fin_cases w <;> decide)).trans (V0_kept m c main_arg6 (by decide)))

theorem kept_arg7 (r : PUnit × MemSt nD τ sig (Elt F))
    (h : Pipeline.FramePost cfgs (dats m) 0 (Pipeline.afterTail₀ cfgs (dats m) 0 (V0 m) [hostOps1]) r) (c : Dev nD) :
    r.2.mem ((c : Thread nD τ).loc main_arg7) = m ((c : Thread nD τ).loc main_arg7) :=
  ((h c).2 main_arg7 (Pipeline.mem_restRefs_of main_arg7 rfl (by intro w; fin_cases w <;> decide))).trans
    ((tail_kept m c main_arg7 (by decide) (by intro w; fin_cases w <;> decide)).trans (V0_kept m c main_arg7 (by decide)))

/-- THE FRAME. -/
theorem frame : θ_run defs (onTc (τ := τ) (main (F := F))) ⟨m, fun _ => 0, ρ⟩ (fun r => ∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) :=
  (θ_run defs _ _).mono (fun r h c => ⟨kept_arg0 m r h c, kept_arg1 m r h c, kept_arg2 m r h c, kept_arg3 m r h c, kept_arg4 m r h c, kept_arg5 m r h c, kept_arg6 m r h c, kept_arg7 m r h c⟩) (run_main m ρ)

end Cert.KernelIdeal.Fr

end
-- ==== Proof.KernelIdeal.Pieces.lean ====
/-
  What the body's stores leave, as the body's arithmetic of what it loaded. The first point of a channel stores the value
  projection of the channel's input rows into the scratch and then normalises the output rows computed from 32 rows of
  it; every other point does the same from 32 rows of the scratch the point before left.
-/
import proofs.«119540_j5360119185745_2_alg».proof.Proof.KernelIdeal.Body
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The 32 rows of the scratch the body reads at a grid point: rows 32 j … 32 j + 31 at second coordinate j. -/
def slice (i : grid0.Coords) (X : Vec F S256x1024 .f32) : Vec F S32x1024 .f32 :=
  View.ld X (Rect.unit (s := S256x1024) (k0_off1 i) S32x1024.size (k0_off1_inb i))

theorem hz2 : (![0, 0] : Fin 2 → Nat) = fun _ => 0 := by funext a; fin_cases a <;> rfl
theorem hz3 : (![0, 0, 0] : Fin 3 → Nat) = fun _ => 0 := by funext a; fin_cases a <;> rfl

/-- The first case leaves the value projection in the scratch. -/
theorem sout_A (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S64x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S256x1024 .f32) (harg10 : arg10.IsWhole) (hc0 : cond0_0 i) (x0 : Vec F S256x1024 .f32) (x1 : Vec F S512x1024 .f32) (x2 : Vec F S1024x1024 .bf16) (x3 : Vec F S1x1024 .f32) (x4 : Vec F S64x1024 .bf16) (x5 : Vec F S1x1024 .f32) (x6 : Vec F S1x1024 .f32) :
    sout0_A_0 (F := F) c i arg2 harg2 arg3 harg3 arg4 harg4 arg5 harg5 arg6 harg6 arg7 harg7 arg8 harg8 arg9 harg9 arg10 harg10 hc0 x0 x1 x2 x3 x4 x5 x6 = k0_pay1 x0 x2 x3 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_unit_zero hz2]
  simp only [View.readAt_eq_ld, harg2.read_unread, harg4.read_unread, harg5.read_unread,
    View.ld_unit_zero (S := S256x1024) hz2, View.ld_unit_zero (S := S1024x1024) hz2, View.ld_unit_zero (S := S1x1024) hz2]

/-- The first case leaves in the output's buffer the normalised rows computed from the slice of that projection. -/
theorem out_A (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S64x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S256x1024 .f32) (harg10 : arg10.IsWhole) (hc0 : cond0_0 i) (x0 : Vec F S256x1024 .f32) (x1 : Vec F S512x1024 .f32) (x2 : Vec F S1024x1024 .bf16) (x3 : Vec F S1x1024 .f32) (x4 : Vec F S64x1024 .bf16) (x5 : Vec F S1x1024 .f32) (x6 : Vec F S1x1024 .f32) :
    out0_A_7 (F := F) c i arg2 harg2 arg3 harg3 arg4 harg4 arg5 harg5 arg6 harg6 arg7 harg7 arg8 harg8 arg9 harg9 arg10 harg10 hc0 x0 x1 x2 x3 x4 x5 x6 = k0_pay2 (slice i (k0_pay1 x0 x2 x3)) x4 x5 x1 x6 := by
  unfold out0_A_7
  rw [View.read_writes_eq_canon _ _ _ (cover0_A_7 c i arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_unit_zero hz3]
  simp only [View.readAt_eq_ld, View.read_writes_junk_eq_canon, View.canon_unit_zero (S := S256x1024) hz2, harg2.read_unread, harg3.read_unread, harg4.read_unread, harg5.read_unread,
    harg6.read_unread, harg7.read_unread, harg8.read_unread,
    View.ld_unit_zero (S := S256x1024) hz2, View.ld_unit_zero (S := S1024x1024) hz2, View.ld_unit_zero (S := S1x1024) hz2,
    View.ld_unit_zero (S := S64x1024) hz2, View.ld_unit_zero (S := S512x1024) hz2]
  rfl

/-- The other case leaves the normalised rows computed from the slice of the scratch it found. -/
theorem out_B (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S64x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S256x1024 .f32) (harg10 : arg10.IsWhole) (hc0 : ¬cond0_0 i) (x0 : Vec F S256x1024 .f32) (x1 : Vec F S512x1024 .f32) (x2 : Vec F S1024x1024 .bf16) (x3 : Vec F S1x1024 .f32) (x4 : Vec F S64x1024 .bf16) (x5 : Vec F S1x1024 .f32) (x6 : Vec F S1x1024 .f32) (xs0 : Vec F S256x1024 .f32) :
    out0_B_7 (F := F) c i arg2 harg2 arg3 harg3 arg4 harg4 arg5 harg5 arg6 harg6 arg7 harg7 arg8 harg8 arg9 harg9 arg10 harg10 hc0 x0 x1 x2 x3 x4 x5 x6 xs0 = k0_pay2 (slice i xs0) x4 x5 x1 x6 := by
  unfold out0_B_7
  rw [View.read_writes_eq_canon _ _ _ (cover0_B_7 c i arg2 harg2 arg3 harg3 arg4 harg4 arg5 harg5 arg6 harg6 arg7 harg7 arg8 harg8 arg9 harg9 arg10 harg10 hc0 x0 x1 x2 x3 x4 x5 x6 xs0)]
  unfold kernelRun0_B
  dsimp only
  sl_unfold_words
  rw [View.canon_unit_zero hz3]
  simp only [View.readAt_eq_ld, harg3.read_unread, harg6.read_unread, harg7.read_unread, harg8.read_unread, harg10.read_unread,
    View.ld_unit_zero (S := S1x1024) hz2, View.ld_unit_zero (S := S64x1024) hz2, View.ld_unit_zero (S := S512x1024) hz2]
  rfl

end Cert.KernelIdeal.Fr

end
-- ==== Proof.Spec.lean ====
/-
  What both programs compute, as ONE function of the argument arrays, index by index, on the extended reals.

  The value projection of row `s` of the flattened input for channel `c` is
    v(s, c, a) = (sum over k of x[s, k] * W_kv[c*128 + 64 + a, k]) + b_kv[c*128 + 64 + a]
  (the second 64 rows of each channel's 128 rows of `W_kv`: the value half). The output projection, read through a
  reshape that moves no data — the [4096, 16, 1024] array of per-row, per-channel projections is re-read as
  [16, 4096, 1024], so output position (c', s') is flat row c' * 4096 + s' = s * 16 + c, that is
  s = c' * 256 + s' / 16 and c = s' % 16 — plus the residual row s' of the input, is
    y(c', s', d) = (sum over a of v(s, c, a) * W_o[d, a]) + b_o[d] + x[s', d].
  The result is y scaled by the reciprocal root of the row's mean square plus a small constant, times the norm weight:
    out(c', s', d) = y * rsqrt((sum over d' of y(c', s', d')^2) / 1024 + eps) * w[d].
  Float literals stay the words the programs spell (1024.0 and the float nearest 1e-6).
-/
import Idealize.ShloMosaic.PureOps.Ideal
import Idealize.ShloMosaic.Lib.ValueIdx

noncomputable section

open scoped BigOperators

namespace Cert.Spec

open Idealize.ShloMosaic Idealize.ShloMosaic.ValueIdx

/-- The input row that feeds output row `s'` of output channel `c'`. -/
def srcRow (c' : Fin 16) (s' : Fin 4096) : Fin 4096 :=
  ⟨c'.val * 256 + s'.val / 16, by have := c'.isLt; have := s'.isLt; omega⟩

/-- The value channel that feeds output row `s'`. -/
def srcChan (s' : Fin 4096) : Fin 16 := ⟨s'.val % 16, Nat.mod_lt _ (by decide)⟩

/-- Row `a` of channel `c`'s value half of the key/value weight. -/
def vRow (c : Fin 16) (a : Fin 64) : Fin 2048 :=
  ⟨c.val * 128 + (64 + a.val), by have := c.isLt; have := a.isLt; omega⟩

variable (x : FVec Ideal ⟨4, ![1, 1, 4096, 1024]⟩ .f32) (Wkv : FVec Ideal ⟨2, ![2048, 1024]⟩ .f32)
  (bkv : FVec Ideal ⟨1, ![2048]⟩ .f32) (Wo : FVec Ideal ⟨2, ![1024, 64]⟩ .f32)
  (bo nw : FVec Ideal ⟨1, ![1024]⟩ .f32)

/-- The value projection of input row `s` for channel `c`, entry `a`. -/
def vproj (s : Fin 4096) (c : Fin 16) (a : Fin 64) : EReal :=
  (∑ k : Fin 1024, x (ix4 0 0 s k) * Wkv (ix2 (vRow c a) k)) + bkv (ix1 (vRow c a))

/-- The output projection plus the residual row, before normalisation. -/
def resid (c' : Fin 16) (s' : Fin 4096) (d : Fin 1024) : EReal :=
  ((∑ a : Fin 64, vproj x Wkv bkv (srcRow c' s') (srcChan s') a * Wo (ix2 d a)) + bo (ix1 d)) + x (ix4 0 0 s' d)

/-- The mean square of a row of `resid`. -/
def meanSq (c' : Fin 16) (s' : Fin 4096) : EReal :=
  Ideal.div (∑ d : Fin 1024, resid x Wkv bkv Wo bo c' s' d * resid x Wkv bkv Wo bo c' s' d) (Ideal.ofBits .f32 0x44800000#32)

/-- One entry of the result. -/
def out (c' : Fin 16) (s' : Fin 4096) (d : Fin 1024) : EReal :=
  resid x Wkv bkv Wo bo c' s' d * Ideal.rsqrt (meanSq x Wkv bkv Wo bo c' s' + Ideal.ofBits .f32 0x358637BD#32) * nw (ix1 d)

/-- The result as the kernel region leaves it, [16, 4096, 1024]. -/
def G3 : FVec Ideal ⟨3, ![16, 4096, 1024]⟩ .f32 := fun i => out x Wkv bkv Wo bo nw (i 0) (i 1) (i 2)

/-- The result as both programs return it, [1, 16, 4096, 1024]. -/
def G : FVec Ideal ⟨4, ![1, 16, 4096, 1024]⟩ .f32 := fun i => out x Wkv bkv Wo bo nw (i 1) (i 2) (i 3)

end Cert.Spec

end
-- ==== Proof.KernelIdeal.Entry.lean ====
/-
  What the kernel region's input arrays hold when the region is entered, in terms of the program's arguments.

  Before the region the program only re-lays its arguments. The input [1, 1, 4096, 1024] is re-read as 4096 rows. The
  key/value weight [2048, 1024] is re-read as [16, 2, 64, 1024] (channel, half, row in the half, column), its second
  half kept, flattened to [1024, 1024] and transposed: column e of the result is row (e / 64) * 128 + 64 + e % 64 of
  the weight, channel e / 64's value row e % 64. The bias goes the same way without the transpose. The output weight
  [1024, 64] is transposed, and the three [1024] vectors become single rows. A change of float format is the identity
  on the extended reals, so none of this changes a value: each entry of each array is one entry of one argument.
-/
import proofs.«119540_j5360119185745_2_alg».proof.Proof.KernelIdeal.Kit
import proofs.«119540_j5360119185745_2_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Entry

open Cert.KernelIdeal Cert.KernelIdeal.Gen Idealize.ShloMosaic Idealize.ShloMosaic.TcCoe Idealize.SL.Sem
  Idealize.ShloMosaic.StableHlo Idealize.ShloMosaic.ValueIdx

variable (m : (ℓ : Loc nD τ sig) → Buf (Elt Ideal) ℓ) (c : Dev nD)

/-! ## Each array as the re-laying of an argument -/

theorem v0_eq : (Fr.V m c main_v0 : S4096x1024.Idx → EReal)
    = shapeCast S4096x1024 (m ((c.tc : Thread nD τ).loc main_arg0)) shapeCasts_S1x1x4096x1024_S4096x1024 := by
  dsimp only [Fr.V, Fr.V0]
  simp only [Gen.hostOps0, List.flatten_cons, List.flatten_nil, List.append_nil]
  after_results
  rfl

theorem v10_eq : (Fr.V m c main_v10 : S1024x1024.Idx → EReal)
    = truncf (F := Ideal) .bf16 (transpose S1024x1024 [1, 0]
        (shapeCast S1024x1024 (shapeCast S16x64x1024 (extractStridedSlice S16x1x64x1024 ![0, 1, 0, 0]
          (shapeCast S16x2x64x1024 (m ((c.tc : Thread nD τ).loc main_arg3)) shapeCasts_S2048x1024_S16x2x64x1024)
          slices_S16x2x64x1024_S16x1x64x1024_0_1_0_0) shapeCasts_S16x1x64x1024_S16x64x1024) shapeCasts_S16x64x1024_S1024x1024)
        transposes_S1024x1024_S1024x1024_1_0) bitsLt_bf16_f32 := by
  dsimp only [Fr.V, Fr.V0]
  simp only [Gen.hostOps0, List.flatten_cons, List.flatten_nil, List.append_nil]
  after_results
  rfl

theorem v13_eq : (Fr.V m c main_v13 : S1x1024.Idx → EReal)
    = shapeCast S1x1024 (shapeCast S1024 (shapeCast S16x64 (extractStridedSlice S16x1x64 ![0, 1, 0]
        (shapeCast S16x2x64 (m ((c.tc : Thread nD τ).loc main_arg4)) shapeCasts_S2048_S16x2x64)
        slices_S16x2x64_S16x1x64_0_1_0) shapeCasts_S16x1x64_S16x64) shapeCasts_S16x64_S1024) shapeCasts_S1024_S1x1024 := by
  dsimp only [Fr.V, Fr.V0]
  simp only [Gen.hostOps0, List.flatten_cons, List.flatten_nil, List.append_nil]
  after_results
  rfl

theorem v12_eq : (Fr.V m c main_v12 : S64x1024.Idx → EReal)
    = truncf (F := Ideal) .bf16 (transpose S64x1024 [1, 0] (m ((c.tc : Thread nD τ).loc main_arg5))
        transposes_S1024x64_S64x1024_1_0) bitsLt_bf16_f32 := by
  dsimp only [Fr.V, Fr.V0]
  simp only [Gen.hostOps0, List.flatten_cons, List.flatten_nil, List.append_nil]
  after_results

theorem v14_eq : (Fr.V m c main_v14 : S1x1024.Idx → EReal)
    = shapeCast S1x1024 (m ((c.tc : Thread nD τ).loc main_arg6)) shapeCasts_S1024_S1x1024 := by
  dsimp only [Fr.V, Fr.V0]
  simp only [Gen.hostOps0, List.flatten_cons, List.flatten_nil, List.append_nil]
  after_results
  rfl

theorem v15_eq : (Fr.V m c main_v15 : S1x1024.Idx → EReal)
    = shapeCast S1x1024 (m ((c.tc : Thread nD τ).loc main_arg7)) shapeCasts_S1024_S1x1024 := by
  dsimp only [Fr.V, Fr.V0]
  simp only [Gen.hostOps0, List.flatten_cons, List.flatten_nil, List.append_nil]
  after_results
  rfl

/-! ## Each array entry by entry -/

/-- Row s, column k of the flattened input is the input's entry. -/
theorem x_at (s : Fin 4096) (k : Fin 1024) :
    (Fr.V m c main_v0 : S4096x1024.Idx → EReal) (ix2 s k)
      = (m ((c.tc : Thread nD τ).loc main_arg0) : S1x1x4096x1024.Idx → EReal) (ix4 0 0 s k) := by
  rw [v0_eq]
  refine shapeCast_apply _ shapeCasts_S1x1x4096x1024_S4096x1024 (ix2 s k) (ix4 0 0 s k) ?_
  rw [Shape.rowMajor_val_four, Shape.rowMajor_val_two]
  show ((0 * 1 + 0) * 4096 + s.val) * 1024 + k.val = s.val * 1024 + k.val
  omega

/-- Column e of the transposed value weight is row (e / 64) * 128 + 64 + e % 64 of the key/value weight. -/
theorem wkvT_at (k e : Fin 1024) :
    (Fr.V m c main_v10 : S1024x1024.Idx → EReal) (ix2 k e)
      = (m ((c.tc : Thread nD τ).loc main_arg3) : S2048x1024.Idx → EReal)
          (ix2 (Cert.Spec.vRow ⟨e.val / 64, by have := e.isLt; omega⟩ ⟨e.val % 64, Nat.mod_lt _ (by decide)⟩) k) := by
  have he := e.isLt; have hk := k.isLt
  rw [v10_eq, truncf_apply, transpose_ix2_apply]
  refine (shapeCast_apply _ shapeCasts_S16x64x1024_S1024x1024 (ix2 e k)
    (ix3 (⟨e.val / 64, by omega⟩ : Fin 16) (⟨e.val % 64, Nat.mod_lt _ (by decide)⟩ : Fin 64) k) ?_).trans ?_
  · rw [Shape.rowMajor_val_three, Shape.rowMajor_val_two]
    show (e.val / 64 * 64 + e.val % 64) * 1024 + k.val = e.val * 1024 + k.val
    omega
  refine (shapeCast_apply _ shapeCasts_S16x1x64x1024_S16x64x1024 _
    (ix4 (⟨e.val / 64, by omega⟩ : Fin 16) (0 : Fin 1) (⟨e.val % 64, Nat.mod_lt _ (by decide)⟩ : Fin 64) k) ?_).trans ?_
  · rw [Shape.rowMajor_val_four, Shape.rowMajor_val_three]
    show ((e.val / 64 * 1 + 0) * 64 + e.val % 64) * 1024 + k.val = (e.val / 64 * 64 + e.val % 64) * 1024 + k.val
    omega
  refine (slice4_axis1_apply 1 _ slices_S16x2x64x1024_S16x1x64x1024_0_1_0_0 _ _ _ _ (1 : Fin 2) rfl).trans ?_
  refine shapeCast_apply _ shapeCasts_S2048x1024_S16x2x64x1024 _ _ ?_
  rw [Shape.rowMajor_val_two, Shape.rowMajor_val_four]
  show (e.val / 64 * 128 + (64 + e.val % 64)) * 1024 + k.val = ((e.val / 64 * 2 + 1) * 64 + e.val % 64) * 1024 + k.val
  omega

/-- Entry e of the value bias row is entry (e / 64) * 128 + 64 + e % 64 of the key/value bias. -/
theorem bkv_at (u : Fin 1) (e : Fin 1024) :
    (Fr.V m c main_v13 : S1x1024.Idx → EReal) (ix2 u e)
      = (m ((c.tc : Thread nD τ).loc main_arg4) : S2048.Idx → EReal)
          (ix1 (Cert.Spec.vRow ⟨e.val / 64, by have := e.isLt; omega⟩ ⟨e.val % 64, Nat.mod_lt _ (by decide)⟩)) := by
  have he := e.isLt
  rw [v13_eq, shapeCast_a_1a_apply]
  refine (shapeCast_apply _ shapeCasts_S16x64_S1024 (ix1 e)
    (ix2 (⟨e.val / 64, by omega⟩ : Fin 16) (⟨e.val % 64, Nat.mod_lt _ (by decide)⟩ : Fin 64)) ?_).trans ?_
  · rw [Shape.rowMajor_val_two, Shape.rowMajor_val_one]
    show e.val / 64 * 64 + e.val % 64 = e.val
    omega
  refine (shapeCast_apply _ shapeCasts_S16x1x64_S16x64 _
    (ix3 (⟨e.val / 64, by omega⟩ : Fin 16) (0 : Fin 1) (⟨e.val % 64, Nat.mod_lt _ (by decide)⟩ : Fin 64)) ?_).trans ?_
  · rw [Shape.rowMajor_val_three, Shape.rowMajor_val_two]
    show (e.val / 64 * 1 + 0) * 64 + e.val % 64 = e.val / 64 * 64 + e.val % 64
    omega
  refine (slice3_axis1_apply 1 _ slices_S16x2x64_S16x1x64_0_1_0 _ _ _ (1 : Fin 2) rfl).trans ?_
  refine shapeCast_apply _ shapeCasts_S2048_S16x2x64 _ _ ?_
  rw [Shape.rowMajor_val_one, Shape.rowMajor_val_three]
  show e.val / 64 * 128 + (64 + e.val % 64) = (e.val / 64 * 2 + 1) * 64 + e.val % 64
  omega

/-- The transposed output weight at (a, d) is the output weight at (d, a). -/
theorem woT_at (a : Fin 64) (d : Fin 1024) :
    (Fr.V m c main_v12 : S64x1024.Idx → EReal) (ix2 a d)
      = (m ((c.tc : Thread nD τ).loc main_arg5) : S1024x64.Idx → EReal) (ix2 d a) := by
  rw [v12_eq, truncf_apply, transpose_ix2_apply]

/-- The output bias as a row. -/
theorem bo_at (u : Fin 1) (d : Fin 1024) :
    (Fr.V m c main_v14 : S1x1024.Idx → EReal) (ix2 u d)
      = (m ((c.tc : Thread nD τ).loc main_arg6) : S1024.Idx → EReal) (ix1 d) := by
  rw [v14_eq, shapeCast_a_1a_apply]

/-- The norm weight as a row. -/
theorem nw_at (u : Fin 1) (d : Fin 1024) :
    (Fr.V m c main_v15 : S1x1024.Idx → EReal) (ix2 u d)
      = (m ((c.tc : Thread nD τ).loc main_arg7) : S1024.Idx → EReal) (ix1 d) := by
  rw [v15_eq, shapeCast_a_1a_apply]

end Cert.KernelIdeal.Entry

end
-- ==== Proof.KernelIdeal.Payload.lean ====
/-
  The kernel body's two stored values, read entry by entry on the extended reals.

  The first is a plain product: row p of a [256, 1024] block times a [1024, 1024] matrix, plus a bias row.
  The second forms, for each of 512 rows, an output projection plus bias plus residual, and normalises the row.
  Its left operand is a [32, 1024] slice re-read as [512, 64] without moving data: row r, column a of the [512, 64]
  array is flat position r * 64 + a, which is row r / 16, column (r % 16) * 64 + a of the slice. A change of float
  format is the identity on the extended reals, and a product accumulated from zero is the plain sum.
-/
import proofs.«119540_j5360119185745_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## Two layout readings: a column made from a vector, and a column spread along rows -/

/-- A vector [a] cast to a column [a, 1] reads, at (i, u), the vector's entry i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    rw [Shape.rowMajor_val_one, Shape.rowMajor_val_two]
    show i.val = i.val * 1 + u.val
    have := u.isLt; omega)

/-- A column [a, 1] broadcast to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two contractions at an index

Each is a plain product of a matrix [M, K] with a matrix [K, N]: at output (p, q) the left operand is read at (p, k)
and the right at (k, q), k over the shared axis; accumulated from zero, the entry is the plain sum of the products. -/

theorem dot1_lhs0 (j : S256x1024.Idx) (k : dot_S256x1024_S1024x1024_S256x1024_1_0_0_1_n_n.contr.Idx) : (dot_S256x1024_S1024x1024_S256x1024_1_0_0_1_n_n.lhsIdx j k 0).val = (j 0).val := by
  unfold DotDims.lhsIdx
  rw [dif_neg (show ¬(0 : Fin S256x1024.rank) ∈ dot_S256x1024_S1024x1024_S256x1024_1_0_0_1_n_n.lhsBatch by decide),
    dif_pos (show (0 : Fin S256x1024.rank) ∈ dot_S256x1024_S1024x1024_S256x1024_1_0_0_1_n_n.lhsNonContracting by decide)]
  rfl
theorem dot1_lhs1 (j : S256x1024.Idx) (k : dot_S256x1024_S1024x1024_S256x1024_1_0_0_1_n_n.contr.Idx) : (dot_S256x1024_S1024x1024_S256x1024_1_0_0_1_n_n.lhsIdx j k 1).val = (k ⟨0, by decide⟩).val :=
  dot_S256x1024_S1024x1024_S256x1024_1_0_0_1_n_n.lhsIdx_val_of_single rfl j k
theorem dot1_rhs0 (j : S256x1024.Idx) (k : dot_S256x1024_S1024x1024_S256x1024_1_0_0_1_n_n.contr.Idx) : (dot_S256x1024_S1024x1024_S256x1024_1_0_0_1_n_n.rhsIdx j k 0).val = (k ⟨0, by decide⟩).val :=
  dot_S256x1024_S1024x1024_S256x1024_1_0_0_1_n_n.rhsIdx_val_of_single rfl j k
theorem dot1_rhs1 (j : S256x1024.Idx) (k : dot_S256x1024_S1024x1024_S256x1024_1_0_0_1_n_n.contr.Idx) : (dot_S256x1024_S1024x1024_S256x1024_1_0_0_1_n_n.rhsIdx j k 1).val = (j 1).val := by
  unfold DotDims.rhsIdx
  rw [dif_neg (show ¬(1 : Fin S1024x1024.rank) ∈ dot_S256x1024_S1024x1024_S256x1024_1_0_0_1_n_n.rhsBatch by decide),
    dif_pos (show (1 : Fin S1024x1024.rank) ∈ dot_S256x1024_S1024x1024_S256x1024_1_0_0_1_n_n.rhsNonContracting by decide)]
  rfl

/-- Rows of [256, 1024] against a [1024, 1024] matrix, accumulated from zero: the sum over the shared axis. -/
theorem dot1_at (l : FVec Ideal S256x1024 .bf16) (r : FVec Ideal S1024x1024 .bf16) (p : Fin 256) (q : Fin 1024) :
    FloatOps.matmul dot_S256x1024_S1024x1024_S256x1024_1_0_0_1_n_n none l r (constant (F := Ideal) S256x1024 .f32 0x00000000#32) (ix2 p q)
      = ∑ k : Fin 1024, l (ix2 p k) * r (ix2 k q) := by
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 p q) ((contrEquiv1 dot_S256x1024_S1024x1024_S256x1024_1_0_0_1_n_n 1024 rfl rfl).symm k) = ix2 p k :=
    funext fun a => Fin.ext (by
      match a with
      | ⟨0, _⟩ => exact dot1_lhs0 _ _
      | ⟨1, _⟩ => exact (dot1_lhs1 _ _).trans hk)
  have er : dot_S256x1024_S1024x1024_S256x1024_1_0_0_1_n_n.rhsIdx (ix2 p q) ((contrEquiv1 dot_S256x1024_S1024x1024_S256x1024_1_0_0_1_n_n 1024 rfl rfl).symm k) = ix2 k q :=
    funext fun a => Fin.ext (by
      match a with
      | ⟨0, _⟩ => exact (dot1_rhs0 _ _).trans hk
      | ⟨1, _⟩ => exact dot1_rhs1 _ _)
  rw [el, er]

theorem dot2_lhs0 (j : S512x1024.Idx) (k : dot_S512x64_S64x1024_S512x1024_1_0_0_1_n_n.contr.Idx) : (dot_S512x64_S64x1024_S512x1024_1_0_0_1_n_n.lhsIdx j k 0).val = (j 0).val := by
  unfold DotDims.lhsIdx
  rw [dif_neg (show ¬(0 : Fin S512x64.rank) ∈ dot_S512x64_S64x1024_S512x1024_1_0_0_1_n_n.lhsBatch by decide),
    dif_pos (show (0 : Fin S512x64.rank) ∈ dot_S512x64_S64x1024_S512x1024_1_0_0_1_n_n.lhsNonContracting by decide)]
  rfl
theorem dot2_lhs1 (j : S512x1024.Idx) (k : dot_S512x64_S64x1024_S512x1024_1_0_0_1_n_n.contr.Idx) : (dot_S512x64_S64x1024_S512x1024_1_0_0_1_n_n.lhsIdx j k 1).val = (k ⟨0, by decide⟩).val :=
  dot_S512x64_S64x1024_S512x1024_1_0_0_1_n_n.lhsIdx_val_of_single rfl j k
theorem dot2_rhs0 (j : S512x1024.Idx) (k : dot_S512x64_S64x1024_S512x1024_1_0_0_1_n_n.contr.Idx) : (dot_S512x64_S64x1024_S512x1024_1_0_0_1_n_n.rhsIdx j k 0).val = (k ⟨0, by decide⟩).val :=
  dot_S512x64_S64x1024_S512x1024_1_0_0_1_n_n.rhsIdx_val_of_single rfl j k
theorem dot2_rhs1 (j : S512x1024.Idx) (k : dot_S512x64_S64x1024_S512x1024_1_0_0_1_n_n.contr.Idx) : (dot_S512x64_S64x1024_S512x1024_1_0_0_1_n_n.rhsIdx j k 1).val = (j 1).val := by
  unfold DotDims.rhsIdx
  rw [dif_neg (show ¬(1 : Fin S64x1024.rank) ∈ dot_S512x64_S64x1024_S512x1024_1_0_0_1_n_n.rhsBatch by decide),
    dif_pos (show (1 : Fin S64x1024.rank) ∈ dot_S512x64_S64x1024_S512x1024_1_0_0_1_n_n.rhsNonContracting by decide)]
  rfl

/-- Rows of [512, 64] against a [64, 1024] matrix, accumulated from zero: the sum over the shared axis. -/
theorem dot2_at (l : FVec Ideal S512x64 .bf16) (r : FVec Ideal S64x1024 .bf16) (p : Fin 512) (q : Fin 1024) :
    FloatOps.matmul dot_S512x64_S64x1024_S512x1024_1_0_0_1_n_n none l r (constant (F := Ideal) S512x1024 .f32 0x00000000#32) (ix2 p q)
      = ∑ k : Fin 64, l (ix2 p k) * r (ix2 k q) := by
  rw [Ideal.matmul_constant_zero_apply, ← Equiv.sum_comp (contrEquiv1 dot_S512x64_S64x1024_S512x1024_1_0_0_1_n_n 64 rfl rfl).symm]
  refine Finset.sum_congr rfl fun k _ => ?_
  have hk := contrEquiv1_symm_val dot_S512x64_S64x1024_S512x1024_1_0_0_1_n_n 64 rfl rfl k
  have el : dot_S512x64_S64x1024_S512x1024_1_0_0_1_n_n.lhsIdx (ix2 p q) ((contrEquiv1 dot_S512x64_S64x1024_S512x1024_1_0_0_1_n_n 64 rfl rfl).symm k) = ix2 p k :=
    funext fun a => Fin.ext (by
      match a with
      | ⟨0, _⟩ => exact dot2_lhs0 _ _
      | ⟨1, _⟩ => exact (dot2_lhs1 _ _).trans hk)
  have er : dot_S512x64_S64x1024_S512x1024_1_0_0_1_n_n.rhsIdx (ix2 p q) ((contrEquiv1 dot_S512x64_S64x1024_S512x1024_1_0_0_1_n_n 64 rfl rfl).symm k) = ix2 k q :=
    funext fun a => Fin.ext (by
      match a with
      | ⟨0, _⟩ => exact (dot2_rhs0 _ _).trans hk
      | ⟨1, _⟩ => exact dot2_rhs1 _ _)
  rw [el, er]

/-! ## The first stored value -/

/-- Entry (p, q) of the first stored value: row p against column q, plus the bias. -/
theorem pay1_at (x0 : Vec Ideal S256x1024 .f32) (w : Vec Ideal S1024x1024 .bf16) (b : Vec Ideal S1x1024 .f32)
    (p : Fin 256) (q : Fin 1024) :
    k0_pay1 (F := Ideal) x0 w b (ix2 p q) = (∑ k : Fin 1024, x0 (ix2 p k) * w (ix2 k q)) + b (ix2 0 q) := by
  unfold k0_pay1
  simp only [shapeCast_self]
  rw [addf_apply, broadcastTo_1b_ab_apply]
  simp only [matmul]
  rw [dot1_at]
  rfl

/-! ## The second stored value -/

/-- Entry (r, d) of the projection plus bias plus residual, before normalisation: the left operand's row r is
    row r / 16 of the slice, columns (r % 16) * 64 … (r % 16) * 64 + 63. -/
def rowY (v6 : Vec Ideal S32x1024 .f32) (wo : Vec Ideal S64x1024 .bf16) (bo : Vec Ideal S1x1024 .f32)
    (xr : Vec Ideal S512x1024 .f32) (r : Fin 512) (d : Fin 1024) : EReal :=
  ((∑ a : Fin 64, v6 (ix2 (⟨r.val / 16, by have := r.isLt; omega⟩ : Fin 32)
        (⟨(r.val % 16) * 64 + a.val, by have := a.isLt; omega⟩ : Fin 1024)) * wo (ix2 a d))
    + bo (ix2 0 d)) + xr (ix2 r d)

/-- The array the body normalises, as the body forms it. -/
def preNorm (v6 : Vec Ideal S32x1024 .f32) (wo : Vec Ideal S64x1024 .bf16) (bo : Vec Ideal S1x1024 .f32)
    (xr : Vec Ideal S512x1024 .f32) : FVec Ideal S512x1024 .f32 :=
  addf (addf (matmul (φ₁ := .bf16) (φ₂ := .bf16) dot_S512x64_S64x1024_S512x1024_1_0_0_1_n_n none
      (shapeCast S512x64 (truncf .bf16 v6 bitsLt_bf16_f32) shapeCasts_S32x1024_S512x64) wo
      (constant S512x1024 .f32 0x00000000#32)) (broadcastTo S512x1024 bo broadcasts_S1x1024_S512x1024)) xr

/-- The normalisation of an array of 512 rows, as the body spells it: each row times the reciprocal root of its mean
    square plus the small constant, times the weight row. -/
def normOf (Y : FVec Ideal S512x1024 .f32) (nw : Vec Ideal S1x1024 .f32) : FVec Ideal S1x512x1024 .f32 :=
  shapeCast S1x512x1024
    (mulf (mulf Y (broadcastTo S512x1024
      (rsqrt (addf (divf
        (shapeCast S512x1 (multiReduction .add [1] S512 (mulf Y Y) 0x00000000#32 reduces_S512x1024_S512 (.inl rfl) rfl)
          shapeCasts_S512_S512x1)
        (broadcast S512x1 (Scalar.ofBits (F := Ideal) .f32 0x44800000#32)))
        (broadcast S512x1 (Scalar.ofBits (F := Ideal) .f32 0x358637BD#32))))
      broadcasts_S512x1_S512x1024)) (broadcastTo S512x1024 nw broadcasts_S1x1024_S512x1024))
    shapeCasts_S512x1024_S1x512x1024

/-- The second stored value is the normalisation of that array. -/
theorem pay2_eq (v6 : Vec Ideal S32x1024 .f32) (wo : Vec Ideal S64x1024 .bf16) (bo : Vec Ideal S1x1024 .f32)
    (xr : Vec Ideal S512x1024 .f32) (nw : Vec Ideal S1x1024 .f32) :
    k0_pay2 (F := Ideal) v6 wo bo xr nw = normOf (preNorm v6 wo bo xr) nw := by
  unfold k0_pay2 preNorm normOf
  simp only [shapeCast_self]

/-- The array before normalisation, entry by entry. -/
theorem preNorm_at (v6 : Vec Ideal S32x1024 .f32) (wo : Vec Ideal S64x1024 .bf16) (bo : Vec Ideal S1x1024 .f32)
    (xr : Vec Ideal S512x1024 .f32) (r : Fin 512) (d : Fin 1024) :
    preNorm v6 wo bo xr (ix2 r d) = rowY v6 wo bo xr r d := by
  unfold preNorm rowY
  rw [addf_apply, addf_apply, broadcastTo_1b_ab_apply]
  simp only [matmul]
  rw [dot2_at]
  refine congrArg (fun t => t + bo (ix2 0 d) + xr (ix2 r d)) (Finset.sum_congr rfl fun a _ => ?_)
  refine congrArg (fun t => t * wo (ix2 a d)) ?_
  refine shapeCast_apply (truncf (F := Ideal) .bf16 v6 bitsLt_bf16_f32) shapeCasts_S32x1024_S512x64 (ix2 r a) _ ?_
  rw [Shape.rowMajor_val_two, Shape.rowMajor_val_two]
  show r.val / 16 * 1024 + (r.val % 16 * 64 + a.val) = r.val * 64 + a.val
  have := r.isLt; have := a.isLt; omega

/-- The normalisation, entry by entry, for any array of rows. -/
theorem normOf_at (Y : FVec Ideal S512x1024 .f32) (nw : Vec Ideal S1x1024 .f32) (r : Fin 512) (d : Fin 1024) :
    normOf Y nw (ix3 0 r d)
      = Y (ix2 r d) * Ideal.rsqrt (Ideal.div (∑ d' : Fin 1024, Y (ix2 r d') * Y (ix2 r d'))
          (Ideal.ofBits .f32 0x44800000#32) + Ideal.ofBits .f32 0x358637BD#32) * nw (ix2 0 d) := by
  unfold normOf
  rw [shapeCast_ab_1ab_apply, mulf_apply, mulf_apply, broadcastTo_1b_ab_apply, broadcastTo_a1_ab_apply]
  refine congrArg (fun t => Y (ix2 r d) * Ideal.rsqrt (Ideal.div t (Ideal.ofBits .f32 0x44800000#32)
    + Ideal.ofBits .f32 0x358637BD#32) * nw (ix2 0 d)) ?_
  rw [shapeCast_a_a1_apply]
  refine (Ideal.multiReduction_add_single (mulf Y Y) 0x00000000#32 reduces_S512x1024_S512 (.inl rfl) rfl (ix1 r)).trans ?_
  refine Finset.sum_congr rfl fun k _ => ?_
  have hl : reduces_S512x1024_S512.lift (ix1 r) k = ix2 r k :=
    funext fun a => Fin.ext (by match a with | ⟨0, _⟩ => rfl | ⟨1, _⟩ => rfl)
  rw [hl]
  rfl

/-- Entry (r, d) of the second stored value. -/
theorem pay2_at (v6 : Vec Ideal S32x1024 .f32) (wo : Vec Ideal S64x1024 .bf16) (bo : Vec Ideal S1x1024 .f32)
    (xr : Vec Ideal S512x1024 .f32) (nw : Vec Ideal S1x1024 .f32) (r : Fin 512) (d : Fin 1024) :
    k0_pay2 (F := Ideal) v6 wo bo xr nw (ix3 0 r d)
      = rowY v6 wo bo xr r d * Ideal.rsqrt (Ideal.div (∑ d' : Fin 1024, rowY v6 wo bo xr r d' * rowY v6 wo bo xr r d')
          (Ideal.ofBits .f32 0x44800000#32) + Ideal.ofBits .f32 0x358637BD#32) * nw (ix2 0 d) := by
  rw [pay2_eq, normOf_at]
  simp only [preNorm_at]

end Cert.KernelIdeal.Pay

end
-- ==== Proof.KernelIdeal.Join.lean ====
/-
  The kernel body's stored value at a grid point, in terms of the program's arguments, is the specification.

  At grid point (ch, j) — output channel ch, row tile j — the first stored value is formed from rows
  ch * 256 … ch * 256 + 255 of the input, and the body reads its rows j * 32 … j * 32 + 31. Row r of the tile's 512 rows
  uses row j * 32 + r / 16 of that value, columns (r % 16) * 64 … (r % 16) * 64 + 63, so it is the value projection of
  input row ch * 256 + j * 32 + r / 16 = ch * 256 + (j * 512 + r) / 16 for channel r % 16 = (j * 512 + r) % 16: the
  specification's source row and source channel of output row j * 512 + r. Column q = c * 64 + a of the transposed value
  weight is the weight's row c * 128 + 64 + a. With the residual row j * 512 + r the pre-normalised entry is the
  specification's, and both normalise a row the same way.

  The blocks are variables here; that their entries are entries of the arguments is hypothesis.
-/
import proofs.«119540_j5360119185745_2_alg».proof.Proof.KernelIdeal.Payload
import proofs.«119540_j5360119185745_2_alg».proof.Proof.Spec

noncomputable section

open scoped BigOperators

namespace Cert.KernelIdeal.Join

open Cert.KernelIdeal Cert.KernelIdeal.Gen Idealize.ShloMosaic Idealize.ShloMosaic.ValueIdx

variable (x : FVec Ideal ⟨4, ![1, 1, 4096, 1024]⟩ .f32) (Wkv : FVec Ideal ⟨2, ![2048, 1024]⟩ .f32)
  (bkv : FVec Ideal ⟨1, ![2048]⟩ .f32) (Wo : FVec Ideal ⟨2, ![1024, 64]⟩ .f32)
  (bo nw : FVec Ideal ⟨1, ![1024]⟩ .f32)

/-- One entry of the first stored value is a value projection, once its row of the input block, its column of the
    transposed weight and its bias entry are known to be the arguments' entries for row `S`, channel `C`, entry `A`. -/
theorem vproj_of (xv : Vec Ideal S256x1024 .f32) (wv : Vec Ideal S1024x1024 .bf16) (bv : Vec Ideal S1x1024 .f32)
    (P : Fin 256) (Q : Fin 1024) (S : Fin 4096) (C : Fin 16) (A : Fin 64)
    (hx : ∀ k : Fin 1024, xv (ix2 P k) = x (ix4 0 0 S k))
    (hw : ∀ k : Fin 1024, wv (ix2 k Q) = Wkv (ix2 (Cert.Spec.vRow C A) k))
    (hb : bv (ix2 0 Q) = bkv (ix1 (Cert.Spec.vRow C A))) :
    k0_pay1 (F := Ideal) xv wv bv (ix2 P Q) = Cert.Spec.vproj x Wkv bkv S C A := by
  rw [Pay.pay1_at, hb]
  unfold Cert.Spec.vproj
  refine congrArg (fun t => t + bkv (ix1 (Cert.Spec.vRow C A))) (Finset.sum_congr rfl fun k _ => ?_)
  rw [hx, hw]

/-- The body's stored entry (r, d) at grid point (ch, j) is the specification's entry (ch, j * 512 + r, d). -/
theorem out_join (ch : Fin 16) (j : Fin 8)
    (xv : Vec Ideal S256x1024 .f32)
    (hxv : ∀ (p : Fin 256) (k : Fin 1024),
      xv (ix2 p k) = x (ix4 0 0 ⟨ch.val * 256 + p.val, by have := ch.isLt; have := p.isLt; omega⟩ k))
    (xr : Vec Ideal S512x1024 .f32)
    (hxr : ∀ (r : Fin 512) (k : Fin 1024),
      xr (ix2 r k) = x (ix4 0 0 ⟨j.val * 512 + r.val, by have := j.isLt; have := r.isLt; omega⟩ k))
    (wv : Vec Ideal S1024x1024 .bf16)
    (hwv : ∀ (k e : Fin 1024), wv (ix2 k e)
      = Wkv (ix2 (Cert.Spec.vRow ⟨e.val / 64, by have := e.isLt; omega⟩ ⟨e.val % 64, Nat.mod_lt _ (by decide)⟩) k))
    (bv : Vec Ideal S1x1024 .f32)
    (hbv : ∀ (e : Fin 1024), bv (ix2 0 e)
      = bkv (ix1 (Cert.Spec.vRow ⟨e.val / 64, by have := e.isLt; omega⟩ ⟨e.val % 64, Nat.mod_lt _ (by decide)⟩)))
    (wo : Vec Ideal S64x1024 .bf16) (hwo : ∀ (a : Fin 64) (d : Fin 1024), wo (ix2 a d) = Wo (ix2 d a))
    (bo' : Vec Ideal S1x1024 .f32) (hbo : ∀ d : Fin 1024, bo' (ix2 0 d) = bo (ix1 d))
    (nw' : Vec Ideal S1x1024 .f32) (hnw : ∀ d : Fin 1024, nw' (ix2 0 d) = nw (ix1 d))
    (v6 : Vec Ideal S32x1024 .f32)
    (hv6 : ∀ (p : Fin 32) (q : Fin 1024), v6 (ix2 p q)
      = k0_pay1 (F := Ideal) xv wv bv (ix2 ⟨j.val * 32 + p.val, by have := j.isLt; have := p.isLt; omega⟩ q))
    (r : Fin 512) (d : Fin 1024) :
    k0_pay2 (F := Ideal) v6 wo bo' xr nw' (ix3 0 r d)
      = Cert.Spec.out x Wkv bkv Wo bo nw ch ⟨j.val * 512 + r.val, by have := j.isLt; have := r.isLt; omega⟩ d := by
  have hch := ch.isLt; have hj := j.isLt; have hr := r.isLt
  -- the pre-normalised row is the specification's
  have hY : ∀ d' : Fin 1024, Pay.rowY v6 wo bo' xr r d'
      = Cert.Spec.resid x Wkv bkv Wo bo ch ⟨j.val * 512 + r.val, by omega⟩ d' := fun d' => by
    unfold Pay.rowY Cert.Spec.resid
    rw [hxr, hbo]
    refine congrArg (fun t => t + bo (ix1 d') + x (ix4 0 0 ⟨j.val * 512 + r.val, by omega⟩ d'))
      (Finset.sum_congr rfl fun a _ => ?_)
    have ha := a.isLt
    rw [hwo, hv6]
    refine congrArg (fun t => t * Wo (ix2 d' a)) ?_
    refine vproj_of x Wkv bkv xv wv bv _ _ _ _ _ (fun k => ?_) (fun k => ?_) ?_
    · refine (hxv _ k).trans (congrArg (fun t => x (ix4 0 0 t k)) (Fin.ext ?_))
      dsimp only [Cert.Spec.srcRow]
      omega
    · refine (hwv k _).trans (congrArg (fun t => Wkv (ix2 t k)) ?_)
      refine congr (congrArg Cert.Spec.vRow (Fin.ext ?_)) (Fin.ext ?_)
      · dsimp only [Cert.Spec.srcChan]; omega
      · dsimp only; omega
    · refine (hbv _).trans (congrArg (fun t => bkv (ix1 t)) ?_)
      refine congr (congrArg Cert.Spec.vRow (Fin.ext ?_)) (Fin.ext ?_)
      · dsimp only [Cert.Spec.srcChan]; omega
      · dsimp only; omega
  rw [Pay.pay2_at]
  unfold Cert.Spec.out Cert.Spec.meanSq
  simp only [hY, hnw]

end Cert.KernelIdeal.Join

end
-- ==== Proof.KernelIdeal.Value.lean ====
/-
  What the kernel's result array holds after the run: the specification's function of the argument arrays.

  Grid point t is (channel t / 8, row tile t % 8). The window feeding the value projection is rows 256 (t/8) … of the
  flattened input, the residual window rows 512 (t%8) …, the weights and biases are whole-array blocks, and the output
  block is rows 512 (t%8) … of channel t/8. By induction on the point, the scratch after point t holds the value
  projection of channel t/8: the first point of a channel stores it, the others leave it. So the block every point writes
  back is that block of the specification, the blocks cover the result array, and the reshape after the region re-reads
  it as [1, 16, 4096, 1024] without moving anything.
-/
import proofs.«119540_j5360119185745_2_alg».proof.Proof.KernelIdeal.Run
import proofs.«119540_j5360119185745_2_alg».proof.Proof.KernelIdeal.Pieces
import proofs.«119540_j5360119185745_2_alg».proof.Proof.KernelIdeal.Entry
import proofs.«119540_j5360119185745_2_alg».proof.Proof.KernelIdeal.Join
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem tlt (t : Fin cfg0.N) : t.val < 128 := lt_of_lt_of_eq t.isLt (show cfg0.N = 128 from N_0)

/-! ## Where each window's block sits -/

/-- The printed index maps and the scratch offset, decided over the grid. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_7.index t (0 : Fin 3) = t.val / 8 ∧ win0_7.index t (1 : Fin 3) = t.val % 8 ∧ win0_7.index t (2 : Fin 3) = 0
    ∧ k0_off1 (grid0.coords t) (0 : Fin 2) = (t.val % 8) * 32 ∧ k0_off1 (grid0.coords t) (1 : Fin 2) = 0 :=
  (by decide +kernel : ∀ t : Fin grid0.N, _)

/-- The weights' and biases' windows sit at the origin at every point. -/
theorem idx_const : ∀ t : Fin cfg0.N,
    win0_2.index t (0 : Fin 2) = 0 ∧ win0_2.index t (1 : Fin 2) = 0 ∧ win0_3.index t (0 : Fin 2) = 0 ∧ win0_3.index t (1 : Fin 2) = 0
    ∧ win0_4.index t (0 : Fin 2) = 0 ∧ win0_4.index t (1 : Fin 2) = 0 ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The value-projection window's block: 256 input rows of the point's channel. -/
theorem blk0_at (c : Dev nD) (t : Fin cfg0.N) (p : Fin 256) (k : Fin 1024) :
    (iblk m c 0 t : Vec Ideal S256x1024 .f32) (ix2 p k)
      = V m c main_v0 (ix2 (⟨(t.val / 8) * 256 + p.val, by have := tlt t; have := p.isLt; omega⟩ : Fin 4096) k) := by
  obtain ⟨e0, e1, -⟩ := idx_facts t
  show V m c main_v0 (((cfg0.win 0).blk t).view.emb (ix2 p k)) = _
  congr 1
  funext a; apply Fin.ext
  match a with
  | ⟨0, _⟩ => show win0_0.index t (0 : Fin 2) * 256 + 1 * p.val = (t.val / 8) * 256 + p.val; rw [e0]; omega
  | ⟨1, _⟩ => show win0_0.index t (1 : Fin 2) * 1024 + 1 * k.val = k.val; rw [e1]; omega

/-- The residual window's block: 512 input rows of the point's row tile. -/
theorem blk1_at (c : Dev nD) (t : Fin cfg0.N) (r : Fin 512) (k : Fin 1024) :
    (iblk m c 1 t : Vec Ideal S512x1024 .f32) (ix2 r k)
      = V m c main_v0 (ix2 (⟨(t.val % 8) * 512 + r.val, by have := r.isLt; omega⟩ : Fin 4096) k) := by
  obtain ⟨-, -, e0, e1, -⟩ := idx_facts t
  show V m c main_v0 (((cfg0.win 1).blk t).view.emb (ix2 r k)) = _
  congr 1
  funext a; apply Fin.ext
  match a with
  | ⟨0, _⟩ => show win0_1.index t (0 : Fin 2) * 512 + 1 * r.val = (t.val % 8) * 512 + r.val; rw [e0]; omega
  | ⟨1, _⟩ => show win0_1.index t (1 : Fin 2) * 1024 + 1 * k.val = k.val; rw [e1]; omega

/-- Window 2's block is its whole array. -/
theorem blk2_eq (c : Dev nD) (t : Fin cfg0.N) : (iblk m c 2 t : Vec Ideal S1024x1024 .bf16) = V m c main_v10 := by
  have h := idx_const t
  funext y
  show V m c main_v10 (((cfg0.win 2).blk t).view.emb y) = V m c main_v10 y
  congr 1
  funext a; apply Fin.ext
  match a with
  | ⟨0, _⟩ => show win0_2.index t (0 : Fin 2) * 1024 + 1 * (y 0).val = (y 0).val; rw [h.1]; omega
  | ⟨1, _⟩ => show win0_2.index t (1 : Fin 2) * 1024 + 1 * (y 1).val = (y 1).val; rw [h.2.1]; omega

/-- Window 3's block is its whole array. -/
theorem blk3_eq (c : Dev nD) (t : Fin cfg0.N) : (iblk m c 3 t : Vec Ideal S1x1024 .f32) = V m c main_v13 := by
  have h := idx_const t
  funext y
  show V m c main_v13 (((cfg0.win 3).blk t).view.emb y) = V m c main_v13 y
  congr 1
  funext a; apply Fin.ext
  match a with
  | ⟨0, _⟩ => show win0_3.index t (0 : Fin 2) * 1 + 1 * (y 0).val = (y 0).val; rw [h.2.2.1]; omega
  | ⟨1, _⟩ => show win0_3.index t (1 : Fin 2) * 1024 + 1 * (y 1).val = (y 1).val; rw [h.2.2.2.1]; omega

/-- Window 4's block is its whole array. -/
theorem blk4_eq (c : Dev nD) (t : Fin cfg0.N) : (iblk m c 4 t : Vec Ideal S64x1024 .bf16) = V m c main_v12 := by
  have h := idx_const t
  funext y
  show V m c main_v12 (((cfg0.win 4).blk t).view.emb y) = V m c main_v12 y
  congr 1
  funext a; apply Fin.ext
  match a with
  | ⟨0, _⟩ => show win0_4.index t (0 : Fin 2) * 64 + 1 * (y 0).val = (y 0).val; rw [h.2.2.2.2.1]; omega
  | ⟨1, _⟩ => show win0_4.index t (1 : Fin 2) * 1024 + 1 * (y 1).val = (y 1).val; rw [h.2.2.2.2.2.1]; omega

/-- Window 5's block is its whole array. -/
theorem blk5_eq (c : Dev nD) (t : Fin cfg0.N) : (iblk m c 5 t : Vec Ideal S1x1024 .f32) = V m c main_v14 := by
  have h := idx_const t
  funext y
  show V m c main_v14 (((cfg0.win 5).blk t).view.emb y) = V m c main_v14 y
  congr 1
  funext a; apply Fin.ext
  match a with
  | ⟨0, _⟩ => show win0_5.index t (0 : Fin 2) * 1 + 1 * (y 0).val = (y 0).val; rw [h.2.2.2.2.2.2.1]; omega
  | ⟨1, _⟩ => show win0_5.index t (1 : Fin 2) * 1024 + 1 * (y 1).val = (y 1).val; rw [h.2.2.2.2.2.2.2.1]; omega

/-- Window 6's block is its whole array. -/
theorem blk6_eq (c : Dev nD) (t : Fin cfg0.N) : (iblk m c 6 t : Vec Ideal S1x1024 .f32) = V m c main_v15 := by
  have h := idx_const t
  funext y
  show V m c main_v15 (((cfg0.win 6).blk t).view.emb y) = V m c main_v15 y
  congr 1
  funext a; apply Fin.ext
  match a with
  | ⟨0, _⟩ => show win0_6.index t (0 : Fin 2) * 1 + 1 * (y 0).val = (y 0).val; rw [h.2.2.2.2.2.2.2.2.1]; omega
  | ⟨1, _⟩ => show win0_6.index t (1 : Fin 2) * 1024 + 1 * (y 1).val = (y 1).val; rw [h.2.2.2.2.2.2.2.2.2]; omega

/-- The 32 scratch rows the body reads at point t are rows 32 (t % 8) … . -/
theorem slice_at (t : Fin cfg0.N) (X : Vec Ideal S256x1024 .f32) (p : Fin 32) (q : Fin 1024) :
    slice (grid0.coords t) X (ix2 p q) = X (ix2 (⟨(t.val % 8) * 32 + p.val, by have := p.isLt; omega⟩ : Fin 256) q) := by
  obtain ⟨-, -, -, -, -, -, -, e0, e1⟩ := idx_facts t
  unfold slice View.ld
  congr 1
  funext a; apply Fin.ext
  match a with
  | ⟨0, _⟩ => show k0_off1 (grid0.coords t) (0 : Fin 2) + 1 * p.val = (t.val % 8) * 32 + p.val; rw [e0]; omega
  | ⟨1, _⟩ => show k0_off1 (grid0.coords t) (1 : Fin 2) + 1 * q.val = q.val; rw [e1]; omega

/-! ## The scratch holds the channel's value projection -/

/-- The value projection of a channel's 256 input rows, as the first point of the channel computes it. -/
def scr (c : Dev nD) (ch : Fin 16) : Vec Ideal S256x1024 .f32 :=
  k0_pay1 (F := Ideal) (fun y => V m c main_v0 (ix2 (⟨ch.val * 256 + (y 0).val, by have := ch.isLt; have : (y 0).val < 256 := (y 0).isLt; omega⟩ : Fin 4096) (y 1)))
    (V m c main_v10) (V m c main_v13)

theorem chOf_lt (t : Fin cfg0.N) : t.val / 8 < 16 := by have := tlt t; omega

/-- At the first point of a channel the stored projection is the channel's. -/
theorem pay1_blocks (c : Dev nD) (t : Fin cfg0.N) :
    k0_pay1 (F := Ideal) (iblk m c 0 t) (iblk m c 2 t) (iblk m c 3 t) = scr m c ⟨t.val / 8, chOf_lt t⟩ := by
  unfold scr
  have e0 : (iblk m c 0 t : Vec Ideal S256x1024 .f32)
      = fun y => V m c main_v0 (ix2 (⟨(t.val / 8) * 256 + (y 0).val, by have := tlt t; have : (y 0).val < 256 := (y 0).isLt; omega⟩ : Fin 4096) (y 1)) :=
    funext fun y => by rw [eq_ix2 y]; exact blk0_at m c t (y 0) (y 1)
  exact congr (congr (congrArg (k0_pay1 (F := Ideal)) e0) (blk2_eq m c t)) (blk3_eq m c t)

set_option maxHeartbeats 2000000 in
/-- The scratch after the first point of a channel. -/
theorem snd_A (c : Dev nD) (t : Fin cfg0.N) (h0 : t.val % 8 = 0) :
    (outsAt0 m c t.val t.isLt).2 = k0_pay1 (F := Ideal) (iblk m c 0 t) (iblk m c 2 t) (iblk m c 3 t) := by
  rw [outsAt0_A m c t h0]
  dsimp only
  exact sout_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t)

set_option maxHeartbeats 2000000 in
/-- The scratch after any other point is what the point before left. -/
theorem snd_B (c : Dev nD) (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]

set_option maxHeartbeats 2000000 in
/-- The output's buffer after the first point of a channel. -/
theorem fst_A (c : Dev nD) (t : Fin cfg0.N) (h0 : t.val % 8 = 0) :
    (outsAt0 m c t.val t.isLt).1
      = k0_pay2 (F := Ideal) (slice (grid0.coords t) (k0_pay1 (F := Ideal) (iblk m c 0 t) (iblk m c 2 t) (iblk m c 3 t))) (iblk m c 4 t) (iblk m c 5 t) (iblk m c 1 t) (iblk m c 6 t) := by
  rw [outsAt0_A m c t h0]
  dsimp only
  exact out_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t)

set_option maxHeartbeats 2000000 in
/-- The output's buffer after any other point. -/
theorem fst_B (c : Dev nD) (t : Fin cfg0.N) (h0 : ¬t.val % 8 = 0) :
    (outsAt0 m c t.val t.isLt).1
      = k0_pay2 (F := Ideal) (slice (grid0.coords t) (outsAt0 m c (t.val - 1) (Nat.lt_of_le_of_lt (Nat.sub_le _ _) t.isLt)).2) (iblk m c 4 t) (iblk m c 5 t) (iblk m c 1 t) (iblk m c 6 t) := by
  rw [outsAt0_B m c t h0]
  dsimp only
  exact out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2

/-- After every point the scratch holds the value projection of the point's channel. -/
theorem scratch_at (c : Dev nD) : ∀ (n : ℕ) (hn : n < cfg0.N), (outsAt0 m c n hn).2 = scr m c ⟨n / 8, chOf_lt ⟨n, hn⟩⟩ := by
  intro n
  induction n using Nat.strong_induction_on with
  | _ n ih =>
    intro hn
    by_cases h0 : n % 8 = 0
    · exact (snd_A m c ⟨n, hn⟩ h0).trans (pay1_blocks m c ⟨n, hn⟩)
    · have hpos : n ≠ 0 := fun e => h0 (by rw [e])
      refine (snd_B m c ⟨n, hn⟩ h0).trans ?_
      refine (ih (n - 1) (by omega) (Nat.lt_of_le_of_lt (Nat.sub_le _ _) hn)).trans ?_
      exact congrArg (scr m c) (Fin.ext (by show (n - 1) / 8 = n / 8; omega))

/-! ## What each point writes back -/

/-- The weights' and biases' blocks are their whole arrays inside the second payload. -/
theorem pay2_blocks (c : Dev nD) (t : Fin cfg0.N) (X : Vec Ideal S32x1024 .f32) :
    k0_pay2 (F := Ideal) X (iblk m c 4 t) (iblk m c 5 t) (iblk m c 1 t) (iblk m c 6 t)
      = k0_pay2 (F := Ideal) X (V m c main_v12) (V m c main_v14) (iblk m c 1 t) (V m c main_v15) :=
  ((congrArg (fun a => k0_pay2 (F := Ideal) X a (iblk m c 5 t) (iblk m c 1 t) (iblk m c 6 t)) (blk4_eq m c t)).trans
    (congrArg (fun b => k0_pay2 (F := Ideal) X (V m c main_v12) b (iblk m c 1 t) (iblk m c 6 t)) (blk5_eq m c t))).trans
    (congrArg (fun d => k0_pay2 (F := Ideal) X (V m c main_v12) (V m c main_v14) (iblk m c 1 t) d) (blk6_eq m c t))

/-- The output's staging buffer after point t: the body's normalisation over 32 rows of the channel's projection. -/
theorem after7_eq (c : Dev nD) (t : Fin cfg0.N) :
    ((dats m 0 c).after 7 t : Vec Ideal S1x512x1024 .f32)
      = k0_pay2 (F := Ideal) (slice (grid0.coords t) (scr m c ⟨t.val / 8, chOf_lt t⟩)) (V m c main_v12) (V m c main_v14) (iblk m c 1 t) (V m c main_v15) := by
  rw [after0_7]
  by_cases h0 : t.val % 8 = 0
  · rw [fst_A m c t h0, pay1_blocks m c t]
    exact pay2_blocks m c t _
  · have hpos : t.val ≠ 0 := fun e => h0 (by rw [e])
    rw [fst_B m c t h0, scratch_at m c (t.val - 1) (Nat.lt_of_le_of_lt (Nat.sub_le _ _) t.isLt),
      show (⟨(t.val - 1) / 8, chOf_lt ⟨t.val - 1, Nat.lt_of_le_of_lt (Nat.sub_le _ _) t.isLt⟩⟩ : Fin 16) = ⟨t.val / 8, chOf_lt t⟩ from Fin.ext (by show (t.val - 1) / 8 = t.val / 8; omega)]
    exact pay2_blocks m c t _

/-- The specification's [16, 4096, 1024] result, of the launch memory's argument arrays. -/
abbrev G3 (c : Dev nD) : S16x4096x1024.Idx → EReal := Cert.Spec.G3 (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7))

/-- One entry of what point t writes back is the specification's entry. -/
theorem after7_at (c : Dev nD) (t : Fin cfg0.N) (r : Fin 512) (d : Fin 1024) :
    ((dats m 0 c).after 7 t : Vec Ideal S1x512x1024 .f32) (ix3 0 r d)
      = G3 m c (ix3 (⟨t.val / 8, chOf_lt t⟩ : Fin 16) (⟨(t.val % 8) * 512 + r.val, by have := r.isLt; omega⟩ : Fin 4096) d) := by
  rw [after7_eq m c t]
  exact Cert.KernelIdeal.Join.out_join (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) ⟨t.val / 8, chOf_lt t⟩ ⟨t.val % 8, Nat.mod_lt _ (by decide)⟩
    (fun y => V m c main_v0 (ix2 (⟨(t.val / 8) * 256 + (y 0).val, by have := tlt t; have : (y 0).val < 256 := (y 0).isLt; omega⟩ : Fin 4096) (y 1)))
    (fun p k => Cert.KernelIdeal.Entry.x_at m c _ k)
    (iblk m c 1 t) (fun r k => (blk1_at m c t r k).trans (Cert.KernelIdeal.Entry.x_at m c _ k))
    (V m c main_v10) (fun k e => Cert.KernelIdeal.Entry.wkvT_at m c k e)
    (V m c main_v13) (fun e => Cert.KernelIdeal.Entry.bkv_at m c 0 e)
    (V m c main_v12) (fun a d => Cert.KernelIdeal.Entry.woT_at m c a d)
    (V m c main_v14) (fun d => Cert.KernelIdeal.Entry.bo_at m c 0 d)
    (V m c main_v15) (fun d => Cert.KernelIdeal.Entry.nw_at m c 0 d)
    (slice (grid0.coords t) (scr m c ⟨t.val / 8, chOf_lt t⟩)) (fun p q => slice_at t _ p q) r d

/-- WHAT POINT t WRITES BACK is block t of the specification's array. -/
theorem flushed7_eq (c : Dev nD) (t : Fin cfg0.N) :
    (dats m 0 c).flushed 7 t = ((cfg0.win 7).blk t).view.read (Elt Ideal) (G3 m c) := by
  obtain ⟨-, -, -, -, e0, e1, e2, -⟩ := idx_facts t
  show (cfg0.win 7).cut (grid0.coords t) ((dats m 0 c).after 7 t) = _
  funext j
  obtain ⟨z, r, d, rfl⟩ : ∃ (z : Fin 1) (r : Fin 512) (d : Fin 1024), j = ix3 z r d := ⟨j 0, j 1, j 2, eq_ix3 j⟩
  obtain rfl : z = 0 := Subsingleton.elim _ _
  show ((dats m 0 c).after 7 t : Vec Ideal S1x512x1024 .f32) (ix3 0 r d) = G3 m c (((cfg0.win 7).blk t).view.emb (ix3 0 r d))
  rw [after7_at m c t r d]
  congr 1
  funext a; apply Fin.ext
  match a with
  | ⟨0, _⟩ => show t.val / 8 = win0_7.index t (0 : Fin 3) * 1 + 1 * 0; rw [e0]; omega
  | ⟨1, _⟩ => show (t.val % 8) * 512 + r.val = win0_7.index t (1 : Fin 3) * 512 + 1 * r.val; rw [e1]; omega
  | ⟨2, _⟩ => show d.val = win0_7.index t (2 : Fin 3) * 1024 + 1 * d.val; rw [e2]; omega

/-- An index of the result is in point t's block iff each coordinate is in the block's range on its axis. -/
theorem mem_blk7 (t : Fin cfg0.N) (i : S16x4096x1024.Idx) :
    i ∈ ((cfg0.win 7).blk t).view.set ↔ ∀ a : Fin 3, win0_7.index t a * S1x512x1024.size a ≤ (i a).val ∧ (i a).val < win0_7.index t a * S1x512x1024.size a + S1x512x1024.size a := by
  show i ∈ ((View.whole main_v16).slice (win0_7.rect t)).set ↔ _
  rw [View.set_slice_whole, Rect.mem_set_unit]
  exact Iff.rfl

/-- Every index of the result is in the block of point 8 (channel) + row / 512. -/
theorem cover7 (i : S16x4096x1024.Idx) : ∃ t : Fin cfg0.N, (cfg0.win 7).flush t = true ∧ i ∈ ((cfg0.win 7).blk t).view.set := by
  have h0 : (i 0).val < 16 := (i 0).isLt
  have h1 : (i 1).val < 4096 := (i 1).isLt
  have h2 : (i 2).val < 1024 := (i 2).isLt
  have hN : cfg0.N = 128 := N_0
  refine ⟨⟨(i 0).val * 8 + (i 1).val / 512, by rw [hN]; omega⟩, flush0_7 _, ?_⟩
  rw [mem_blk7]
  obtain ⟨-, -, -, -, e0, e1, e2, -⟩ := idx_facts ⟨(i 0).val * 8 + (i 1).val / 512, by rw [hN]; omega⟩
  intro a
  match a with
  | ⟨0, _⟩ => show win0_7.index _ (0 : Fin 3) * 1 ≤ (i 0).val ∧ (i 0).val < win0_7.index _ (0 : Fin 3) * 1 + 1; rw [e0]; show ((i 0).val * 8 + (i 1).val / 512) / 8 * 1 ≤ _ ∧ _ < ((i 0).val * 8 + (i 1).val / 512) / 8 * 1 + 1; omega
  | ⟨1, _⟩ => show win0_7.index _ (1 : Fin 3) * 512 ≤ (i 1).val ∧ (i 1).val < win0_7.index _ (1 : Fin 3) * 512 + 512; rw [e1]; show ((i 0).val * 8 + (i 1).val / 512) % 8 * 512 ≤ _ ∧ _ < ((i 0).val * 8 + (i 1).val / 512) % 8 * 512 + 512; omega
  | ⟨2, _⟩ => show win0_7.index _ (2 : Fin 3) * 1024 ≤ (i 2).val ∧ (i 2).val < win0_7.index _ (2 : Fin 3) * 1024 + 1024; rw [e2]; omega

/-- THE RESULT ARRAY after the region is the specification's. -/
theorem final7 (c : Dev nD) : (dats m 0 c).arrAt 7 cfg0.N = G3 m c :=
  (dats m 0 c).arrAt_eq_of_cover 7 (G3 m c) (fun t _ => flushed7_eq m c t) (cover7)

end Cert.KernelIdeal.Val

end
-- ==== Proof.KernelIdeal.Reshape.lean ====
/-
  The reshape after the kernel region moves no data: [16, 4096, 1024] re-read as [1, 16, 4096, 1024] only gains a
  leading unit axis, so entry (u, c', s', d) of the result is entry (c', s', d) of the array — the specification's
  three-axis form re-read is its four-axis form.
-/
import proofs.«119540_j5360119185745_2_alg».proof.Proof.Gen.KernelIdeal
import proofs.«119540_j5360119185745_2_alg».proof.Proof.Spec
import Idealize.ShloMosaic.Lib.ValueLayout

noncomputable section

namespace Cert.KernelIdeal.Resh

open Cert.KernelIdeal Cert.KernelIdeal.Facts₀ Idealize.ShloMosaic Idealize.ShloMosaic.ValueIdx

variable (x : FVec Ideal ⟨4, ![1, 1, 4096, 1024]⟩ .f32) (Wkv : FVec Ideal ⟨2, ![2048, 1024]⟩ .f32)
  (bkv : FVec Ideal ⟨1, ![2048]⟩ .f32) (Wo : FVec Ideal ⟨2, ![1024, 64]⟩ .f32)
  (bo nw : FVec Ideal ⟨1, ![1024]⟩ .f32)

/-- The specification's [16, 4096, 1024] array, given a leading unit axis, is its [1, 16, 4096, 1024] array. -/
theorem reshape_G3 :
    (shapeCast Cert.KernelIdeal.S1x16x4096x1024 (Cert.Spec.G3 x Wkv bkv Wo bo nw)
        shapeCasts_S16x4096x1024_S1x16x4096x1024 : FVec Ideal Cert.KernelIdeal.S1x16x4096x1024 .f32)
      = Cert.Spec.G x Wkv bkv Wo bo nw := by
  funext i
  obtain ⟨u, c', s', d, rfl⟩ : ∃ (u : Fin 1) (c' : Fin 16) (s' : Fin 4096) (d : Fin 1024), i = ix4 u c' s' d :=
    ⟨i 0, i 1, i 2, i 3, eq_ix4 i⟩
  rw [shapeCast_abc_1abc_apply]
  rfl

end Cert.KernelIdeal.Resh

end
-- ==== Proof.KernelIdeal.Result.lean ====
/-
  The idealized kernel's run, read: the result buffer ends at the specification's function of the argument arrays (the
  reshape after the region re-reads the region's [16, 4096, 1024] array as [1, 16, 4096, 1024], moving nothing), and the
  arguments end as they were.
-/
import proofs.«119540_j5360119185745_2_alg».proof.Proof.KernelIdeal.Frame
import proofs.«119540_j5360119185745_2_alg».proof.Proof.KernelIdeal.Value
import proofs.«119540_j5360119185745_2_alg».proof.Proof.KernelIdeal.Reshape

set_option maxRecDepth 16384

noncomputable section

namespace Cert.KernelIdeal.Res

open Cert.KernelIdeal Cert.KernelIdeal.Gen Cert.KernelIdeal.Fr
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The specification's result, of the launch memory's argument arrays. -/
abbrev G (c : Dev nD) : S1x16x4096x1024.Idx → EReal := Cert.Spec.G (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7))

/-- What the result buffer holds after the reshape. -/
theorem result_eq (c : Dev nD) : Pipeline.afterTail₀ cfgs (dats m) 0 (V0 m) [hostOps1] c main_v17 = G m c := by
  unfold Pipeline.afterTail₀
  show StableHlo.after hostOps1 _ (Proc.devRef .tc main_v17) = _
  after_results
  rw [show Pipeline.withArrays spec0 c (V0 m c) (fun w => (dats m 0 c).arrAt w cfg0.N) (Proc.devRef .tc main_v16) = (dats m 0 c).arrAt 7 cfg0.N
    from withArrays_arr m c 7, Cert.KernelIdeal.Val.final7 m c]
  exact Cert.KernelIdeal.Resh.reshape_G3 (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7))

/-- The run: the result at the specification, the arguments unchanged. -/
theorem run : θ_run defs (onTc (τ := τ) (main (F := Ideal))) ⟨m, fun _ => 0, ρ⟩ (fun r => ∀ c : Dev nD,
      r.2.mem ((c : Thread nD τ).loc main_v17) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) :=
  (θ_run defs _ _).mono (fun r h c =>
    ⟨((h c).2 main_v17 (Pipeline.mem_restRefs_of main_v17 rfl (by intro w; fin_cases w <;> decide))).trans (result_eq m c),
      kept_arg0 m r h c, kept_arg1 m r h c, kept_arg2 m r h c, kept_arg3 m r h c, kept_arg4 m r h c, kept_arg5 m r h c, kept_arg6 m r h c, kept_arg7 m r h c⟩) (run_main m ρ)

end Cert.KernelIdeal.Res

end
-- ==== Proof.LibRootLaw.lean ====
/-
  One law of the extended reals, and the fact that makes it apply.

  The law: dividing by the square root of a positive quantity is multiplying by its reciprocal square root,
    y / sqrt z = y * rsqrt z        for every y and every z > 0, z = +infinity included
  (at a positive real z both sides are y times the real 1 / sqrt z; at +infinity both are y * 0). It fails at
  z = 0, where the quotient by zero is an infinity of y's sign or junk while rsqrt 0 = +infinity, and below zero,
  so positivity is needed.

  The fact: a mean of squares plus a positive constant is positive, whatever extended reals are squared, because
  t * t >= 0 for every extended real t (an infinity times itself is +infinity), a finite sum of nonnegatives is
  nonnegative, and so is its product with the positive real 1 / 1024.
-/
import Idealize.ShloMosaic.PureOps.Ideal

noncomputable section

open scoped BigOperators

namespace Cert.RootLaw

open Idealize.ShloMosaic

/-- The quotient by a square root is the product with the reciprocal square root, at every positive radicand. -/
theorem div_sqrt_eq_mul_rsqrt (y z : EReal) (hz : 0 < z) : Ideal.div y (Ideal.sqrt z) = y * Ideal.rsqrt z := by
  induction z using EReal.rec with
  | bot => exact absurd hz (not_lt_bot)
  | coe r =>
    have hr : 0 < r := EReal.coe_pos.1 hz
    have hs : Real.sqrt r ≠ 0 := (Real.sqrt_pos.2 hr).ne'
    rw [Ideal.sqrt_coe, Ideal.rsqrt_coe, if_neg (not_lt.2 hr.le), if_neg (not_lt.2 hr.le), if_neg hr.ne',
      Ideal.div_coe hs, one_div]
  | top =>
    rw [Ideal.sqrt_top, Ideal.rsqrt_top, Ideal.div, if_neg (by exact EReal.top_ne_zero), EReal.inv_top]

/-- A square is nonnegative on the extended reals: an infinity times itself is `+∞`. -/
theorem mul_self_nonneg (t : EReal) : 0 ≤ t * t := by
  induction t using EReal.rec with
  | bot => rw [EReal.bot_mul_bot]; exact le_top
  | coe r => rw [← EReal.coe_mul]; exact EReal.coe_nonneg.2 (_root_.mul_self_nonneg r)
  | top => rw [EReal.top_mul_top]; exact le_top

/-- The word `0x44800000` denotes the real `1024`. -/
theorem ofBits_1024 : Ideal.ofBits .f32 0x44800000#32 = ((1024 : ℝ) : EReal) := by
  simp [Ideal.ofBits, Ideal.ieee, -EReal.coe_mul]; norm_num

/-- The word `0x358637BD` (the float nearest `1e-6`) denotes a positive real. -/
theorem ofBits_eps_pos : ∃ e : ℝ, 0 < e ∧ Ideal.ofBits .f32 0x358637BD#32 = (e : EReal) := by
  refine ⟨_, ?_, by simp [Ideal.ofBits, Ideal.ieee, -EReal.coe_mul]; rfl⟩
  positivity

/-- The mean of squares over `1024` plus the small constant is positive, whatever is squared. -/
theorem meanSq_add_eps_pos {ι : Type*} [Fintype ι] (r : ι → EReal) :
    0 < Ideal.div (∑ d, r d * r d) (Ideal.ofBits .f32 0x44800000#32) + Ideal.ofBits .f32 0x358637BD#32 := by
  obtain ⟨e, he, hw⟩ := ofBits_eps_pos
  have hsum : 0 ≤ ∑ d, r d * r d := Finset.sum_nonneg fun d _ => mul_self_nonneg (r d)
  have hq : (0 : EReal) ≤ ((1 / 1024 : ℝ) : EReal) := EReal.coe_nonneg.2 (by norm_num)
  rw [ofBits_1024, Ideal.div_coe (by norm_num), hw]
  exact (EReal.coe_pos.2 he).trans_le (le_add_of_nonneg_left (mul_nonneg hsum hq))

/-- The reference's normalisation is the kernel's: a row entry divided by the root of the row's mean square plus
    the constant is that entry times the reciprocal root, for every row of extended reals. -/
theorem div_sqrt_meanSq {ι : Type*} [Fintype ι] (r : ι → EReal) (y : EReal) :
    Ideal.div y (Ideal.sqrt (Ideal.div (∑ d, r d * r d) (Ideal.ofBits .f32 0x44800000#32) + Ideal.ofBits .f32 0x358637BD#32))
      = y * Ideal.rsqrt (Ideal.div (∑ d, r d * r d) (Ideal.ofBits .f32 0x44800000#32) + Ideal.ofBits .f32 0x358637BD#32) :=
  div_sqrt_eq_mul_rsqrt y _ (meanSq_add_eps_pos r)

end Cert.RootLaw

end
-- ==== Proof.Reference.lean ====
/-
  The reference program's result, read back operation by operation, is the specification's function of its arguments.

  The reading follows the data. Two reshapes present the input [1, 1, 4096, 1024] as rows [1, 4096, 1024] without
  moving anything. The key/value projection of row s is a [2048]-vector; re-read as [16, 1, 128] and sliced to its
  upper 64 columns, entry (c, a) is column c * 128 + 64 + a: channel c's value half. The output projection contracts
  those 64 entries against W_o and adds b_o, giving an array [1, 4096, 16, 1, 1024] over (row s, channel c, column d).
  Re-read as [1, 16, 4096, 1024], position (c', s', d) is the same flat position as (s, c, d) with
  s * 16 + c = c' * 4096 + s', that is s = c' * 256 + s' / 16 and c = s' % 16. To this the residual x[s', d] is added.
  The row's squares are summed from an initial 0, divided by 1024, increased by the small constant, and rooted; the
  row is divided by that root and scaled by the norm weight. The specification multiplies by the reciprocal root
  instead: the two agree because the radicand is positive for every row of extended reals.

  The query projection the program also computes reaches no result and is not read.
-/
import proofs.«119540_j5360119185745_2_alg».proof.Proof.Gen.ReferenceIdeal.Run
import proofs.«119540_j5360119185745_2_alg».proof.Proof.Gen.ReferenceIdeal.Read
import proofs.«119540_j5360119185745_2_alg».proof.Proof.Spec
import proofs.«119540_j5360119185745_2_alg».proof.Proof.LibRootLaw

noncomputable section

open scoped BigOperators

namespace Cert.RefBridge

open Cert.ReferenceIdeal Cert.ReferenceIdeal.Read Idealize.ShloMosaic Idealize.ShloMosaic.TcCoe Idealize.SL.Sem
  Idealize.ShloMosaic.StableHlo Idealize.ShloMosaic.ValueIdx Cert.Spec

variable (x0 : (⟨S1x1x4096x1024, .f32⟩ : BufTy).Contents (Elt Ideal)) (x3 : (⟨S2048x1024, .f32⟩ : BufTy).Contents (Elt Ideal))
  (x4 : (⟨S2048, .f32⟩ : BufTy).Contents (Elt Ideal)) (x5 : (⟨S1024x64, .f32⟩ : BufTy).Contents (Elt Ideal))
  (x6 x7 : (⟨S1024, .f32⟩ : BufTy).Contents (Elt Ideal))

/-- The two leading reshapes only drop and reinsert unit axes: entry `(s, k)` of the rows is the input's entry. -/
theorem rows_at (z : Fin 1) (s : Fin 4096) (k : Fin 1024) :
    val_main_v1 (F := Ideal) x0 (ix3 z s k) = x0 (ix4 0 0 s k) := by
  rw [val_main_v1_apply, val_main_v0_apply]
  refine congrArg x0 (funext fun a => Fin.ext ?_)
  have hz := z.isLt; have hs := s.isLt; have hk := k.isLt
  match a with
  | ⟨0, _⟩ => rfl
  | ⟨1, _⟩ => rfl
  | ⟨2, _⟩ => dsimp only [idx_main_v0, idx_main_v1, ix3, ix4]; omega
  | ⟨3, _⟩ => dsimp only [idx_main_v0, idx_main_v1, ix3, ix4]; omega

/-- The key/value projection of row `s`, column `e`, with its bias. -/
theorem kv_at (z : Fin 1) (s : Fin 4096) (e : Fin 2048) :
    val_main_v10 (F := Ideal) x0 x3 x4 (ix3 z s e)
      = (∑ k : Fin 1024, x0 (ix4 0 0 s k) * x3 (ix2 e k)) + x4 (ix1 e) := by
  rw [val_main_v10_apply, val_main_v7_apply, val_main_v9_apply, val_main_v8_apply, Ideal.addf_def]
  have hb : idx_main_v8 (idx_main_v9 (ix3 z s e)) = ix1 e :=
    funext fun a => Fin.ext (by match a with | ⟨0, _⟩ => rfl)
  rw [hb]
  congr 1
  refine Finset.sum_congr rfl fun k _ => ?_
  have hl : lidx_main_v7 (ix3 z s e) k = ix3 z s k :=
    funext fun a => Fin.ext (by match a with | ⟨0, _⟩ => rfl | ⟨1, _⟩ => rfl | ⟨2, _⟩ => rfl)
  have hr : ridx_main_v7 (ix3 z s e) k = ix2 e k :=
    funext fun a => Fin.ext (by match a with | ⟨0, _⟩ => rfl | ⟨1, _⟩ => rfl)
  rw [hl, hr, rows_at]

/-- Splitting the 2048 columns as [16, 1, 128] and keeping the upper 64 of each 128 selects channel `c`'s value
    half: column `c * 128 + 64 + a`. -/
theorem value_at (z : Fin 1) (s : Fin 4096) (c : Fin 16) (w : Fin 1) (a : Fin 64) :
    val_main_v12 (F := Ideal) x0 x3 x4 (ix5 z s c w a) = vproj x0 x3 x4 s c a := by
  rw [val_main_v12_apply, val_main_v11_apply]
  have h : idx_main_v11 (idx_main_v12 (ix5 z s c w a)) = ix3 0 s (vRow c a) := funext fun b => Fin.ext (by
    have hz := z.isLt; have hs := s.isLt; have hc := c.isLt; have hw := w.isLt; have ha := a.isLt
    match b with
    | ⟨0, _⟩ => rfl
    | ⟨1, _⟩ => dsimp only [idx_main_v11, idx_main_v12, ix5, ix3]; omega
    | ⟨2, _⟩ => dsimp only [idx_main_v11, idx_main_v12, ix5, ix3, vRow]; omega)
  rw [h, kv_at]
  rfl

/-- The output projection of row `s`, channel `c`, column `d`, with its bias. -/
theorem oproj_at (z : Fin 1) (s : Fin 4096) (c : Fin 16) (w : Fin 1) (d : Fin 1024) :
    val_main_v16 (F := Ideal) x0 x3 x4 x5 x6 (ix5 z s c w d)
      = (∑ a : Fin 64, vproj x0 x3 x4 s c a * x5 (ix2 d a)) + x6 (ix1 d) := by
  rw [val_main_v16_apply, val_main_v13_apply, val_main_v15_apply, val_main_v14_apply, Ideal.addf_def]
  have hb : idx_main_v14 (idx_main_v15 (ix5 z s c w d)) = ix1 d :=
    funext fun b => Fin.ext (by match b with | ⟨0, _⟩ => rfl)
  rw [hb]
  congr 1
  refine Finset.sum_congr rfl fun a _ => ?_
  have hl : lidx_main_v13 (ix5 z s c w d) a = ix5 z s c w a :=
    funext fun b => Fin.ext (by
      match b with | ⟨0, _⟩ => rfl | ⟨1, _⟩ => rfl | ⟨2, _⟩ => rfl | ⟨3, _⟩ => rfl | ⟨4, _⟩ => rfl)
  have hr : ridx_main_v13 (ix5 z s c w d) a = ix2 d a :=
    funext fun b => Fin.ext (by match b with | ⟨0, _⟩ => rfl | ⟨1, _⟩ => rfl)
  rw [hl, hr, value_at]

/-- The reshape [1, 4096, 16, 1, 1024] → [1, 16, 4096, 1024] keeps flat positions: `(c', s')` reads row
    `c' * 256 + s' / 16`, channel `s' % 16`. With the residual row added this is the specification's `resid`. -/
theorem resid_at (z : Fin 1) (c' : Fin 16) (s' : Fin 4096) (d : Fin 1024) :
    val_main_v20 (F := Ideal) x0 x3 x4 x5 x6 (ix4 z c' s' d) = resid x0 x3 x4 x5 x6 c' s' d := by
  rw [val_main_v20_apply, val_main_v17_apply, val_main_v19_apply, val_main_v18_apply, Ideal.addf_def]
  have h17 : idx_main_v17 (ix4 z c' s' d) = ix5 0 (srcRow c' s') (srcChan s') 0 d := funext fun b => Fin.ext (by
    have hz := z.isLt; have hc := c'.isLt; have hs := s'.isLt; have hd := d.isLt
    match b with
    | ⟨0, _⟩ => rfl
    | ⟨1, _⟩ => dsimp only [idx_main_v17, ix4, ix5, srcRow]; omega
    | ⟨2, _⟩ => dsimp only [idx_main_v17, ix4, ix5, srcChan]; omega
    | ⟨3, _⟩ => rfl
    | ⟨4, _⟩ => dsimp only [idx_main_v17, ix4, ix5]; omega)
  have h19 : idx_main_v18 (idx_main_v19 (ix4 z c' s' d)) = ix3 0 s' d :=
    funext fun b => Fin.ext (by match b with | ⟨0, _⟩ => rfl | ⟨1, _⟩ => rfl | ⟨2, _⟩ => rfl)
  rw [h17, h19, oproj_at, rows_at]
  rfl

/-- The row sum of squares: the initial value is the word of `+0.0`, which denotes `0`. -/
theorem sumSq_at (z : Fin 1) (c' : Fin 16) (s' : Fin 4096) :
    val_main_v22 (F := Ideal) x0 x3 x4 x5 x6 (ix3 z c' s')
      = ∑ d : Fin 1024, resid x0 x3 x4 x5 x6 c' s' d * resid x0 x3 x4 x5 x6 c' s' d := by
  rw [val_main_v22_apply, val_main_cst_apply, Ideal.ofBits_def, Ideal.ofBits_zero_f32, zero_add]
  refine Finset.sum_congr rfl fun d _ => ?_
  have h : idx_main_v22 (ix3 z c' s') d = ix4 z c' s' d :=
    funext fun b => Fin.ext (by match b with | ⟨0, _⟩ => rfl | ⟨1, _⟩ => rfl | ⟨2, _⟩ => rfl | ⟨3, _⟩ => rfl)
  rw [h, val_main_v21_apply, Ideal.mulf_def, resid_at]

/-- The root of the row's mean square plus the small constant. -/
theorem root_at (z : Fin 1) (c' : Fin 16) (s' : Fin 4096) (w : Fin 1) :
    val_main_v28 (F := Ideal) x0 x3 x4 x5 x6 (ix4 z c' s' w)
      = Ideal.sqrt (meanSq x0 x3 x4 x5 x6 c' s' + Ideal.ofBits .f32 0x358637BD#32) := by
  rw [val_main_v28_apply, val_main_v27_apply, val_main_v25_apply, val_main_v23_apply, val_main_v24_apply,
    val_main_cst_0_apply, val_main_v26_apply, val_main_cst_1_apply, Ideal.hostUnary_sqrt_def, Ideal.addf_def,
    Ideal.hostDivf_def, Ideal.ofBits_def, Ideal.ofBits_def]
  have h : idx_main_v23 (ix4 z c' s' w) = ix3 0 c' s' :=
    funext fun b => Fin.ext (by match b with | ⟨0, _⟩ => rfl | ⟨1, _⟩ => rfl | ⟨2, _⟩ => rfl)
  rw [h, sumSq_at]
  rfl

/-- One entry of the reference's result is the specification's: the quotient by the root is the product with the
    reciprocal root, the radicand being positive. -/
theorem out_at (z : Fin 1) (c' : Fin 16) (s' : Fin 4096) (d : Fin 1024) :
    val_main_v33 (F := Ideal) x0 x3 x4 x5 x6 x7 (ix4 z c' s' d) = out x0 x3 x4 x5 x6 x7 c' s' d := by
  rw [val_main_v33_apply, val_main_v30_apply, val_main_v29_apply, val_main_v32_apply, val_main_v31_apply,
    Ideal.mulf_def, Ideal.hostDivf_def]
  have h29 : idx_main_v29 (ix4 z c' s' d) = ix4 0 c' s' 0 :=
    funext fun b => Fin.ext (by match b with | ⟨0, _⟩ => rfl | ⟨1, _⟩ => rfl | ⟨2, _⟩ => rfl | ⟨3, _⟩ => rfl)
  have h31 : idx_main_v31 (idx_main_v32 (ix4 z c' s' d)) = ix1 d :=
    funext fun b => Fin.ext (by match b with | ⟨0, _⟩ => rfl)
  rw [h29, h31, root_at, resid_at]
  unfold out meanSq
  exact congrArg (fun t => t * x7 (ix1 d))
    (Cert.RootLaw.div_sqrt_meanSq (fun d' => resid x0 x3 x4 x5 x6 c' s' d') (resid x0 x3 x4 x5 x6 c' s' d))

/-- The reference's result is the specification, on all extended-real arrays. -/
theorem ref_eq : val_main_v33 (F := Ideal) x0 x3 x4 x5 x6 x7 = G x0 x3 x4 x5 x6 x7 := by
  funext i
  obtain ⟨z, c', s', d, rfl⟩ : ∃ (z : Fin 1) (c' : Fin 16) (s' : Fin 4096) (d : Fin 1024), i = ix4 z c' s' d :=
    ⟨i 0, i 1, i 2, i 3, eq_ix4 i⟩
  rw [out_at]
  rfl

/-- The same about the reference's run: the array it returns is the specification of the arrays it was given. -/
theorem res_eq (m : (ℓ : Loc nD τ sig) → Buf (Elt Ideal) ℓ) (c : Dev nD) :
    Cert.ReferenceIdeal.Value.res_main_v33 (F := Ideal) m c
      = G (m ((c.tc : Thread nD τ).loc main_arg0)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  rw [val_main_v33_eq]
  exact ref_eq _ _ _ _ _ _

end Cert.RefBridge

end
-- ==== Proof.lean ====
/-
  The certificate's five claims.

  Both programs compute, for output channel c', row s' and feature d, the value projection of input row
  s = 256 c' + s' / 16 for channel c = s' % 16, projected out and added to the residual row s', then scaled by the reciprocal
  root of the row's mean square plus a small constant and by the norm weight (Proof/Spec.lean). The kernel reaches it
  block by block: the first grid point of a channel stores the channel's value projection in a scratch buffer, every
  point reads 32 rows of it, and the blocks written back tile the result (Proof/KernelIdeal/Value.lean). The reference
  reaches it through a reshape that moves no data, and spells the scaling as a quotient by the root, which is the
  product with the reciprocal root on every extended real because the radicand is positive (Proof/Reference.lean,
  Proof/LibRootLaw.lean). Neither side needs the inputs finite.

  The kernel reads the flattened input through two windows, so its frame is proved against the launch theorem for
  windows that share an array, the shared array held half and half (Proof/Kernel/Run.lean, Proof/KernelIdeal/Run.lean).
-/
import proofs.«119540_j5360119185745_2_alg».proof.Defs
import proofs.«119540_j5360119185745_2_alg».proof.Proof.Gen.Kernel
import proofs.«119540_j5360119185745_2_alg».proof.Proof.Gen.KernelIdeal
import proofs.«119540_j5360119185745_2_alg».proof.Proof.Gen.ReferenceIdeal
import proofs.«119540_j5360119185745_2_alg».proof.Proof.Gen.Pre_finite_inputs
import proofs.«119540_j5360119185745_2_alg».proof.Proof.Gen.ReferenceIdeal.Run
import proofs.«119540_j5360119185745_2_alg».proof.Proof.Kernel.Frame
import proofs.«119540_j5360119185745_2_alg».proof.Proof.KernelIdeal.Frame
import proofs.«119540_j5360119185745_2_alg».proof.Proof.KernelIdeal.Result
import proofs.«119540_j5360119185745_2_alg».proof.Proof.Reference
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- At the ideal values both programs end with the specification's array of arguments that agree. -/
theorem algebraic : Cert.algebraic_KernelIdeal_ReferenceIdeal := by
  intro m ρ m' ρ' _ hagree
  refine ⟨fun c => Cert.KernelIdeal.Res.G m c, Cert.KernelIdeal.Res.run m ρ, ?_⟩
  refine (θ_run Cert.ReferenceIdeal.defs _ _).mono (fun _ h c => ⟨(h c).1.trans ?_, (h c).2⟩)
    (Cert.ReferenceIdeal.Value.run (F := Ideal) m' ρ')
  rw [Cert.RefBridge.res_eq m' c, (hagree c).1, (hagree c).2.2.2.1, (hagree c).2.2.2.2.1, (hagree c).2.2.2.2.2.1,
    (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
